-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S256x32x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_

variable [Facts]

def fn {F : FTy → Type} [FloatOps F] (main_arg0 : FVec F S4x2048x4096 .f32) (main_arg1 : FVec F S11008x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S256x4096 : Shape := ⟨2, ![256, 4096]⟩
abbrev S256x32x128 : Shape := ⟨3, ![256, 32, 128]⟩
abbrev S256x32 : Shape := ⟨2, ![256, 32]⟩
abbrev S256x32x1 : Shape := ⟨3, ![256, 32, 1]⟩
abbrev S8192x4096 : Shape := ⟨2, ![8192, 4096]⟩
abbrev S8192x11008 : Shape := ⟨2, ![8192, 11008]⟩
abbrev S1024x4096 : Shape := ⟨2, ![1024, 4096]⟩
abbrev S512x4096 : Shape := ⟨2, ![512, 4096]⟩
abbrev S1024x512 : Shape := ⟨2, ![1024, 512]⟩
abbrev S4x2048x11008 : Shape := ⟨3, ![4, 2048, 11008]⟩

abbrev nBuf : Space → Nat
  | .hbm => 7
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .bf16⟩
  | .hbm, ⟨3, _⟩ => ⟨S8192x4096, .f32⟩
  | .hbm, ⟨4, _⟩ => ⟨S8192x4096, .bf16⟩
  | .hbm, ⟨5, _⟩ => ⟨S8192x11008, .f32⟩
  | .hbm, ⟨6, _⟩ => ⟨S4x2048x11008, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x4096, .bf16⟩
  | .local _ .vmem, ⟨5, _⟩ => ⟨S1024x4096, .bf16⟩
  | .local _ .vmem, ⟨6, _⟩ => ⟨S512x4096, .bf16⟩
  | .local _ .vmem, ⟨7, _⟩ => ⟨S512x4096, .bf16⟩
  | .local _ .vmem, ⟨8, _⟩ => ⟨S1024x512, .f32⟩
  | .local _ .vmem, ⟨9, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [BitOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 22], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  reduces_S256x32x128_S256x32 : S256x32x128.Reduces [2] S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x512_S1024x512_0_0 : ∀ a, (![0, 0] : Fin 2 → Nat) a + S1024x512.size a ≤ S1024x512.size a
  h_S1024x512 : 0 < S1024x512.numel
  shapeCasts_S8192x11008_S4x2048x11008 : S8192x11008.ShapeCasts S4x2048x11008
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S11008x4096.size a
  hwx0_0 : ∀ i : grid0.Coords, EltTy.bits .f32 = 32 ∨ (Rect.block (s := S11008x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S512x4096.size a < S11008x4096.size a
  hwx1_1 : ∀ i : grid1.Coords, EltTy.bits .bf16 = 32 ∨ (Rect.unit (s := S11008x4096) (fun a => cc1_transform_1 i a * S512x4096.size a) (fun a => (Pipeline.Clip.of (cc1_transform_1 i a) (S512x4096.size a) (S11008x4096.size a)).extent (S512x4096.size a)) fun a => Pipeline.Clip.inb (Pipeline.Clip.ok_of (hstart1_1 i a))).WholeWords (EltTy.packing .bf16)
  hwxs1_1 : ∀ i : grid1.Coords, EltTy.bits .bf16 = 32 ∨ (Rect.unit (s := S512x4096) (fun _ => 0) (fun a => (Pipeline.Clip.of (cc1_transform_1 i a) (S512x4096.size a) (S11008x4096.size a)).extent (S512x4096.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024x512.size a < S8192x11008.size a
  hwx1_2 : ∀ i : grid1.Coords, EltTy.bits .f32 = 32 ∨ (Rect.unit (s := S8192x11008) (fun a => cc1_transform_2 i a * S1024x512.size a) (fun a => (Pipeline.Clip.of (cc1_transform_2 i a) (S1024x512.size a) (S8192x11008.size a)).extent (S1024x512.size a)) fun a => Pipeline.Clip.inb (Pipeline.Clip.ok_of (hstart1_2 i a))).WholeWords (EltTy.packing .f32)
  hwxs1_2 : ∀ i : grid1.Coords, EltTy.bits .f32 = 32 ∨ (Rect.unit (s := S1024x512) (fun _ => 0) (fun a => (Pipeline.Clip.of (cc1_transform_2 i a) (S1024x512.size a) (S8192x11008.size a)).extent (S1024x512.size a)) fun a => (Nat.zero_add _).trans_le (Pipeline.Clip.extent_le (Pipeline.Clip.ok_of (hstart1_2 i a)))).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v0) S512x4096.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v3) S1024x512.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x32x128 : Shape := ⟨3, ![11008, 32, 128]⟩
abbrev S_ : Shape := ⟨0, ![]⟩
abbrev S11008x32 : Shape := ⟨2, ![11008, 32]⟩
abbrev S11008x32x1 : Shape := ⟨3, ![11008, 32, 1]⟩
abbrev S4x2048x11008 : Shape := ⟨3, ![4, 2048, 11008]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x32x128, .f32⟩
  | .hbm, ⟨3, _⟩ => ⟨S11008x32x128, .f32⟩
  | .hbm, ⟨4, _⟩ => ⟨S_, .f32⟩
  | .hbm, ⟨5, _⟩ => ⟨S11008x32, .f32⟩
  | .hbm, ⟨6, _⟩ => ⟨S11008x32x1, .f32⟩
  | .hbm, ⟨7, _⟩ => ⟨S_, .f32⟩
  | .hbm, ⟨8, _⟩ => ⟨S_, .f32⟩
  | .hbm, ⟨9, _⟩ => ⟨S11008x32x1, .f32⟩
  | .hbm, ⟨10, _⟩ => ⟨S11008x32x1, .f32⟩
  | .hbm, ⟨11, _⟩ => ⟨S11008x32x128, .f32⟩
  | .hbm, ⟨12, _⟩ => ⟨S11008x32x128, .f32⟩
  | .hbm, ⟨13, _⟩ => ⟨S11008x32x128, .f32⟩
  | .hbm, ⟨14, _⟩ => ⟨S11008x32x128, .f32⟩
  | .hbm, ⟨15, _⟩ => ⟨S11008x32x128, .f32⟩
  | .hbm, ⟨16, _⟩ => ⟨S11008x4096, .f32⟩
  | .hbm, ⟨17, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  shapeCasts_S11008x4096_S11008x32x128 : S11008x4096.ShapeCasts S11008x32x128
  reducesTo_S11008x32x128_S11008x32_d2 : S11008x32x128.ReducesTo [2] S11008x32
  h_S_ : 0 < S_.numel
  bcast_S11008x32_S11008x32x1_0_1 : S11008x32.BroadcastsInDim S11008x32x1 (![0, 1] : Fin 2 → Fin S11008x32x1.rank)
  bcast_S_S11008x32x1 : S_.BroadcastsInDim S11008x32x1 (![] : Fin 0 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.BodyK.lean ====
/-
  The two kernel regions of the program, each at a parameter V (the TensorCore's buffer contents when the region is
  entered), for any float instance.
  Region 0 scales one 256-row block of the weight per grid point: its body loads the block, stores one pure function
  of it, and every block lies inside the array, so what each staging buffer holds after the body is a function of
  the point alone.
  Region 1 multiplies a 1024-row block of x by a 512-row block of the scaled weight. The weight has 11008 = 21·512 + 256
  rows: the last block of the weight (and of the result's columns) overhangs the array, its fetch lands 256 rows and
  leaves the buffer's other 256 rows at words nothing names, and the product the body stores may depend on them. So
  for the result's buffer nothing is NAMED: the proof data of region 1 relates what the body is handed to what it
  leaves — the two inputs as found, the result in a relation `Rel` that the caller chooses (nothing at all for a frame;
  an equation on the columns inside the array where the arithmetic allows it).
-/
import proofs.«167918_j15805479649501_2_alg».proof.Proof.Gen.Kernel.Launch
import proofs.«167918_j15805479649501_2_alg».proof.Proof.Gen.Kernel.Skeleton
import proofs.«167918_j15805479649501_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! # Region 0: one block of the weight scaled per point -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 4096 buffer as a rectangle: what the body loads and stores through. -/
abbrev r0 : Rect S256x4096 := Rect.unit (s := S256x4096) ![0, 0] S256x4096.size inb_S256x4096_S256x4096_0_0

/-- The result's staging buffer after the body: the one store's payload over the loaded block. -/
def out0_1 (x0 : Vec F S256x4096 .f32) : Vec F S256x4096 .bf16 :=
  View.canon [⟨r0, k0_pay1 (View.ld x0 r0)⟩]

theorem cover0_1 (p0 : Vec F S256x4096 .bf16) (y : S256x4096.Idx) :
    ∃ pc ∈ ([⟨r0, p0⟩] : List (View.Piece (Elt F) S256x4096 .bf16)), y ∈ pc.1.set :=
  View.cover_of_tiled [⟨r0, p0⟩] S256x4096.size (by rfl) y

set_option maxHeartbeats 1000000 in
/-- The body on whole staging memrefs, the input's at contents x0 and the result's at anything, leaves the input's as it
    was and the result's at `out0_1 x0`. -/
theorem sound_kernel0 (c : Dev nD) (E : Set ℕ) (i : grid0.Coords) (arg1 : Memref sig .tc .vmem S256x4096 .f32) (harg1 : arg1.IsWhole)
    (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__dequant_kernel i arg1 harg1 arg2 harg2) K := by
  simp only [cc0__dequant_kernel_eq_skeleton]; unfold cc0__dequant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of region 0 on core c: the arrays as the region finds them; after the body at point t the input's
    buffer at its block and the result's at `out0_1` of it; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! # Region 1: a block of x against a block of the scaled weight -/

/-- Window w's block at point t, read off its array as the region finds it: for the weight's last block and the
    result's last column block, the part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three whole buffers as rectangles: what the body loads and stores through. -/
abbrev r1x : Rect S1024x4096 := Rect.unit (s := S1024x4096) ![0, 0] S1024x4096.size inb_S1024x4096_S1024x4096_0_0
abbrev r1w : Rect S512x4096 := Rect.unit (s := S512x4096) ![0, 0] S512x4096.size inb_S512x4096_S512x4096_0_0
abbrev r1o : Rect S1024x512 := Rect.unit (s := S1024x512) ![0, 0] S1024x512.size inb_S1024x512_S1024x512_0_0

/-- The result's staging buffer after the body: the one store's payload, the product of the two loaded buffers. -/
def out1_2 (x0 : Vec F S1024x4096 .bf16) (x1 : Vec F S512x4096 .bf16) : Vec F S1024x512 .f32 :=
  View.canon [⟨r1o, k1_pay1 (View.ld x0 r1x) (View.ld x1 r1w)⟩]

theorem cover1_2 (p0 : Vec F S1024x512 .f32) (y : S1024x512.Idx) :
    ∃ pc ∈ ([⟨r1o, p0⟩] : List (View.Piece (Elt F) S1024x512 .f32)), y ∈ pc.1.set :=
  View.cover_of_tiled [⟨r1o, p0⟩] S1024x512.size (by rfl) y

set_option maxHeartbeats 1000000 in
/-- The body on whole staging memrefs, the inputs' at contents x0 and x1 and the result's at anything, leaves the inputs'
    as they were and the result's at `out1_2 x0 x1`. -/
theorem sound_kernel1 (c : Dev nD) (E : Set ℕ) (i : grid1.Coords) (arg2 : Memref sig .tc .vmem S1024x4096 .bf16) (harg2 : arg2.IsWhole)
    (arg3 : Memref sig .tc .vmem S512x4096 .bf16) (harg3 : arg3.IsWhole) (arg4 : Memref sig .tc .vmem S1024x512 .f32) (harg4 : arg4.IsWhole)
    (x0 : Vec F S1024x4096 .bf16) (x1 : Vec F S512x4096 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__matmul_kernel i arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

-- what is asked of the result's staging buffer after the body at a point: the caller's choice
variable (Rel : (c : Dev nD) → Fin cfg1.N → (S1024x512.Idx → Elt F .f32) → Prop)

/-- The proof data of region 1 on core c, relational: the arrays as the region finds them; the body leaves each input's
    buffer as it found it and the result's in `Rel`; nothing owed; full shares. -/
def rdat1 (c : Dev nD) : RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => Rel c t X
  Φ _ := Pipeline.ΦA spec1 c
  q _ := fullShare
  owed _ := 0

theorem rA_eq1 (c : Dev nD) (w : Fin cfg1.W) : (rdat1 V Rel c).A w = V c (Pipeline.arrRef spec1 w) := by
  dsimp only [rdat1]

/-- What the body finds in x's buffer at any point, fetched there or not: x's block (the window is not cut). -/
theorem finds1_0 (c : Dev nD) (t : Fin cfg1.N) (Y : (cfg1.win 0).block.Idx → Elt F (cfg1.win 0).elt)
    (h : (rdat1 V Rel c).Finds 0 t Y) : Y = iblk1 V c 0 t := by
  obtain ⟨d, hd⟩ := (rdat1 V Rel c).finds_in_eq_fetched 0 rfl (fun _ _ _ => rfl)
    (fun t Y X hX => by dsimp only [rdat1] at hX; exact hX) t Y h
  rw [hd]
  unfold RDat.fetched RDat.blockOf iblk1
  rw [rA_eq1]; try rfl

/-- What it finds in the weight's buffer: fetched at every point, its block on the rows the fetch lands and words nothing
    names on the others. -/
theorem finds1_1 (c : Dev nD) (t : Fin cfg1.N) (Y : (cfg1.win 1).block.Idx → Elt F (cfg1.win 1).elt)
    (h : (rdat1 V Rel c).Finds 1 t Y) : ∃ d, Y = (cfg1.win 1).fill (cfg1.grid.coords t) d (iblk1 V c 1 t) := by
  obtain ⟨d, hd⟩ := ((rdat1 V Rel c).finds_of_fetch (fetch1_1 t) Y).mp h
  refine ⟨d, hd.trans ?_⟩
  unfold RDat.fetched RDat.blockOf iblk1
  rw [rA_eq1]

/-- The body obligation of region 1, given that `Rel` holds of the product of x's block with ANY filling-out of the weight's. -/
theorem body_obligation1
    (hRel : ∀ (c : Dev nD) (t : Fin cfg1.N) (d : (cfg1.win 1).block.Idx → Elt F (cfg1.win 1).elt),
      Rel c t (out1_2 (iblk1 V c 0 t) ((cfg1.win 1).fill (cfg1.grid.coords t) d (iblk1 V c 1 t))))
    (c : Dev nD) : (rdat1 V Rel c).BodyObligation (defs₀ (F := F)) Variants.none () Set.univ := fun t Y hY => by
  rw [bigSep_W1, bigSep_W1]
  have h0 := finds1_0 V Rel c t (Y 0) (hY 0)
  obtain ⟨d1, h1⟩ := finds1_1 V Rel c t (Y 1) (hY 1)
  rw [show (rdat1 V Rel c).Φ t.succ = (rdat1 V Rel c).Φ t.castSucc from rfl,
    show (rdat1 V Rel c).owesAt () t.succ = (rdat1 V Rel c).owesAt () t.castSucc from rfl]
  show _ ⊢ wp frame (wpE (defs₀ (F := F)) Variants.none c none) Set.univ (bodyAt1 t) _
  iintro ⟨HΦ, Ho, H0, H1, H2⟩
  iapply (sound_kernel1 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists (out1_2 (Y 0) (Y 1)); isplitr
  · ipureintro
    show Rel c t (out1_2 (Y 0) (Y 1))
    rw [h0, h1]; exact hRel c t d1
  iexact H2

end Cert.Kernel.Body

end
-- ==== Proof.RunK.lean ====
/-
  The run of the whole program, for any float instance: @main is region 0, two host operations (a reshape of x and its
  change of format), region 1, and a last reshape. Between two items the core's unscoped buffers are held whole at a
  valuation: the launch memory; then region 0's result array at what its write-backs leave (a function of the launch
  memory); then the two host operations applied; then, after region 1, its result array at SOME contents its
  write-backs may leave (what the body stores for the last, overhanging block of columns is not a function of the
  arrays, so those contents are not named: the thread state carries them under an existential, with what is known of
  them, `RDat.ArrAt`); then the last reshape applied to that. At the end every unscoped buffer is read against the
  final memory.
-/
import proofs.«167918_j15805479649501_2_alg».proof.Proof.BodyK

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
variable (Rel : (c : Dev nD) → Fin cfg1.N → (S1024x512.Idx → Elt F .f32) → Prop)

/-! ## The buffer contents at each boundary -/

/-- Core c's buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two host operations (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- The contents region 1's arrays may be left at: one buffer's worth per window. -/
abbrev Arr1 (c : Dev nD) : Type := (w : Fin cfg1.W) → Buf (Elt F) ((cfg1.win w).arr.view.loc (c : Thread nD τ))

/-- At region 1's exit, its arrays at contents A: every other buffer as entered. -/
def W3 (c : Dev nD) (A : Arr1 (F := F) c) : Valuation τ sig (Elt F) :=
  Pipeline.withArrays spec1 c (W2 m ρ c) A
theorem W3_arr (c : Dev nD) (A : Arr1 (F := F) c) (w : Fin cfg1.W) :
    W3 m ρ c A (Proc.devRef .tc (Pipeline.arrRef spec1 w)) = A w := by
  unfold W3; exact Pipeline.withArrays_arr spec1 launch1.win.arr_inj c _ _ w
theorem W3_of_ne (c : Dev nD) (A : Arr1 (F := F) c) (b : Ref sig .tc) (hb : ∀ w, Pipeline.arrRef spec1 w ≠ b) :
    W3 m ρ c A (Proc.devRef .tc b) = W2 m ρ c (Proc.devRef .tc b) := by
  unfold W3; exact Pipeline.withArrays_of_ne spec1 c _ _ b hb
abbrev V3 (c : Dev nD) (A : Arr1 (F := F) c) : (b : Ref sig .tc) → Buf (Elt F) ((c : Thread nD τ).loc b) := fun b => W3 m ρ c A b

/-- After the last reshape. -/
abbrev W4 (c : Dev nD) (A : Arr1 (F := F) c) : Valuation τ sig (Elt F) := StableHlo.after hostOps2 (W3 m ρ c A)

/-! ## The proof data family -/

abbrev adm : (p : Fin 2) → (pcfgs (F := F) p).Adm := fun p => (cfgs p).toPCfg_adm

/-- Every pipeline's proof data, each at its region's entry contents: region 0's exact data read relationally, region 1's
    relational. -/
def rdats : (p : Fin 2) → (c : Dev nD) → RDat τ (Elt F) Unit ℕ (UR sig nD τ) ℕ (Pipeline.pin (pcfgs (F := F)) adm p) c
  | ⟨0, _⟩ => fun c => (dat0 (V0 m ρ) c).toR
  | ⟨1, _⟩ => fun c => rdat1 (V2 m ρ) Rel c

/-- What region 1's arrays may hold at its exit. -/
def Left1 (c : Dev nD) (A : Arr1 (F := F) c) : Prop := ∀ w, (rdat1 (V2 m ρ) Rel c).ArrAt w cfg1.N (A w)

abbrev 𝒱₀ : Variants := Variants.none
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

set_option backward.isDefEq.respectTransparency.types false in
/-- The last host stretch, run from contents known only to exist: for every A that region 1 may have left. -/
def hsegLast : Pipeline.HostSeg (Name := ℕ) (U := UR sig nD τ) (pcfgs (F := F)) defs₀ 𝒱₀ L lv where
  prog := StableHlo.seq hostOps2
  pre c := iprop(∃ A : Arr1 (F := F) c, ⌜Left1 m ρ Rel c A⌝ ∗ StableHlo.held (c : Thread nD τ) (Pipeline.ucRefs τ sig) (W3 m ρ c A) ∗ R c)
  post c := iprop(∃ A : Arr1 (F := F) c, ⌜Left1 m ρ Rel c A⌝ ∗ StableHlo.held (c : Thread nD τ) (Pipeline.ucRefs τ sig) (W4 m ρ c A) ∗ R c)
  run c {β} k K := by
    have hseq := fun (A : Arr1 (F := F) c) => StableHlo.wp_seq (defs := Pipeline.defs (pcfgs (F := F)) defs₀) (Variants.lift 𝒱₀) none Set.univ c
      (Pipeline.ucRefs τ sig) k (K := K) hostOps2
      (fun op h => Pipeline.sub_ucRefs op ((List.forall_iff_forall_mem.mp hostOps2_sub) op h))
      (fun op h => (List.forall_iff_forall_mem.mp hostOps2_fresh) op h) (W3 m ρ c A)
    iintro ⟨Hk, Hbd, ⟨%A, %hA, Hh, HR⟩, -⟩
    iapply (hseq A) $$ [Hbd Hh]
    · isplitl [Hbd] <;> iassumption
    iintro ⟨Hbd, Hh⟩
    iapply Hk
    isplitl [Hbd]; · iexact Hbd
    iexists A; isplitr; · ipureintro; exact hA
    isplitl [Hh] <;> iassumption

/-! ## A region's arrays back among the unscoped buffers -/

/-- Pipeline p's arrays at contents Fn and the unscoped rest at V are the core's unscoped buffers at any valuation V'
    that has the arrays at Fn and agrees with V off them (relational proof data; as the library's lemma for exact data). -/
theorem ubufs_of_arrays {p : Fin 2} (hw : Pipeline.WinFacts (Pipeline.pin (pcfgs (F := F)) adm p).spec)
    (harr : ∀ w, ((Pipeline.pin (pcfgs (F := F)) adm p).spec w).arr.IsWhole) (c : Dev nD)
    (rd : RDat τ (Elt F) Unit ℕ (UR sig nD τ) ℕ (Pipeline.pin (pcfgs (F := F)) adm p) c) (hshare : ∀ w, rd.share w = fullShare)
    (V V' : (b : Ref sig .tc) → Buf (Elt F) ((c : Thread nD τ).loc b))
    (Fn : (w : Fin (Pipeline.pin (pcfgs (F := F)) adm p).W) → Buf (Elt F) (((Pipeline.pin (pcfgs (F := F)) adm p).spec w).arr.view.loc (c : Thread nD τ)))
    (hF : ∀ w, Fn w = V' (Pipeline.arrRef (Pipeline.pin (pcfgs (F := F)) adm p).spec w))
    (hrest : ∀ b, b ∉ Finset.univ.image (Pipeline.arrRef (Pipeline.pin (pcfgs (F := F)) adm p).spec) → V' b = V b) :
    iprop(rd.arrays Fn ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V']
  unfold RDat.arrays
  refine sep_mono (Entails.of_eq (bigSep_congr fun w _ => by rw [(harr w).set_eq_univ, hshare, hF])) (Entails.of_eq ?_)
  unfold Pipeline.unscopedRest
  exact bigSep_congr fun b hb => by rw [hrest b (Finset.mem_sdiff.mp hb).2]

/-- `arraysAt`, opened: the arrays at SOME contents they may hold after every write-back. -/
theorem arraysAt_open (c : Dev nD) :
    ((rdat1 (V2 m ρ) Rel c).arraysAt cfg1.N : sProp 𝕄)
      ⊢ iprop(∃ A : Arr1 (F := F) c, ⌜Left1 m ρ Rel c A⌝ ∗ (rdat1 (V2 m ρ) Rel c).arrays A) := by
  unfold RDat.arraysAt
  iintro Ha
  ihave Ha' := (BI.bigSep_exists_pi Finset.univ (fun w Fw => iprop(⌜(rdat1 (V2 m ρ) Rel c).ArrAt w cfg1.N Fw⌝
      ∗ (cfg1.win w).arr.view.loc (c : Thread nD τ) ↦[(cfg1.win w).arr.view.set]{(rdat1 (V2 m ρ) Rel c).share w} Fw))) $$ Ha
  icases Ha' with ⟨%A, Ha⟩
  ihave Ha2 := (BI.bigSep_pure_sep Finset.univ (fun w => (rdat1 (V2 m ρ) Rel c).ArrAt w cfg1.N (A w))
      (fun w => (cfg1.win w).arr.view.loc (c : Thread nD τ) ↦[(cfg1.win w).arr.view.set]{(rdat1 (V2 m ρ) Rel c).share w} A w)) $$ Ha
  icases Ha2 with ⟨%hA', Ha⟩
  iexists A; isplitr; · ipureintro; exact fun w => hA' w (Finset.mem_univ w)
  unfold RDat.arrays
  iexact Ha

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents for some A region 1
    may have left, the generator register at some state. -/
abbrev Tₙ (c : Dev nD) : sProp 𝕄 :=
  iprop(∃ A : Arr1 (F := F) c, ⌜Left1 m ρ Rel c A⌝ ∗ StableHlo.held (c : Thread nD τ) (Pipeline.ucRefs τ sig) (W4 m ρ c A) ∗ ∃ r, prngReg c r)

/-! ## The regions as segments -/

set_option backward.isDefEq.respectTransparency.types false in
/-- Region 0 over the thread state: entered from every unscoped buffer at the launch contents, left at `W1`. -/
def reg0 : Pipeline.RDat.RegionSeg (pcfgs (F := F)) adm (rdats m ρ Rel) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose.toR
  hwaits := Pipeline.RDat.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.RDat.arrays_of_unscopedBufs (p := 0) (pcfgs (F := F)) adm (rdats m ρ Rel) launch0.win launch0.arr_whole c
      ((rdats m ρ Rel 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ Rel 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ Rel 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := ubufs_of_arrays (p := 0) launch0.win launch0.arr_whole c (rdats m ρ Rel 0 c)
      ((rdats m ρ Rel 0 c).share_full fun _ => rfl)
      (V0 m ρ c) (V1 m ρ c) ((dat0 (V0 m ρ) c).arrAt · cfg0.N) (hF0 m ρ c) (hrest0 m ρ c)
    rw [Pipeline.unscopedBufs_held] at hjoin
    have hopen : ((rdats m ρ Rel 0 c).arraysAt (Pipeline.pin (pcfgs (F := F)) adm 0).N : sProp 𝕄)
        ⊢ (rdats m ρ Rel 0 c).arrays ((dat0 (V0 m ρ) c).arrAt · cfg0.N) := (dat0 (V0 m ρ) c).toR_arraysAt_post cfg0.N
    iintro ⟨Ha, HO, HY, Hrest⟩
    ihave Ha := hopen $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

variable (hRel : ∀ (c : Dev nD) (t : Fin cfg1.N) (d : (cfg1.win 1).block.Idx → Elt F (cfg1.win 1).elt),
      Rel c t (out1_2 (iblk1 (V2 m ρ) c 0 t) ((cfg1.win 1).fill (cfg1.grid.coords t) d (iblk1 (V2 m ρ) c 1 t))))

set_option backward.isDefEq.respectTransparency.types false in
/-- Region 1 over the thread state: entered from every unscoped buffer at `W2`, left at `W3 A` for some A it may leave. -/
def reg1 : Pipeline.RDat.RegionSeg (pcfgs (F := F)) adm (rdats m ρ Rel) () defs₀ 𝒱₀ L lv 1 where
  win := launch1.win.to₀
  block_pos := launch1.block_pos
  stage_whole := launch1.stage_whole
  K := PEmpty
  osem k := k.elim
  ho := Pipeline.OwnSemFacts.none _
  hbody c := body_obligation1 (V2 m ρ) Rel hRel c
  hwaits := Pipeline.RDat.hwaits_of_owed_zero _ _ _ _ L lv 1 fun _ _ => rfl
  pre c := iprop(StableHlo.held (c : Thread nD τ) (Pipeline.ucRefs τ sig) (W2 m ρ c) ∗ R c)
  post c := iprop(∃ A : Arr1 (F := F) c, ⌜Left1 m ρ Rel c A⌝ ∗ StableHlo.held (c : Thread nD τ) (Pipeline.ucRefs τ sig) (W3 m ρ c A) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.RDat.arrays_of_unscopedBufs (p := 1) (pcfgs (F := F)) adm (rdats m ρ Rel) launch1.win launch1.arr_whole c
      ((rdats m ρ Rel 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ Rel 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ Rel 1 c).Φ (Fin.last _) = Pipeline.ΦA spec1 c from rfl]; unfold Pipeline.ΦA
    iintro ⟨Hr, Hp⟩
    isplitl [Hp]; · iexact Hp
    isplitr; · iempintro
    iexact Hr
  hexit c := by
    have hopen : ((rdats m ρ Rel 1 c).arraysAt (Pipeline.pin (pcfgs (F := F)) adm 1).N : sProp 𝕄)
        ⊢ iprop(∃ A : Arr1 (F := F) c, ⌜Left1 m ρ Rel c A⌝ ∗ (rdats m ρ Rel 1 c).arrays A) := arraysAt_open m ρ Rel c
    iintro ⟨Ha, HO, HY, Hrest⟩
    ihave Ha := hopen $$ Ha
    icases Ha with ⟨%A, %hA, Ha⟩
    have hjoin := ubufs_of_arrays (p := 1) launch1.win launch1.arr_whole c (rdats m ρ Rel 1 c)
      ((rdats m ρ Rel 1 c).share_full fun _ => rfl)
      (V2 m ρ c) (V3 m ρ c A) A (fun w => (W3_arr m ρ c A w).symm)
      (fun b hb => W3_of_ne m ρ c A b fun w e => hb (Finset.mem_image.mpr ⟨w, Finset.mem_univ _, e⟩))
    rw [Pipeline.unscopedBufs_held] at hjoin
    imodintro
    iexists A
    isplitr; · ipureintro; exact hA
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m ρ Rel) () defs₀ 𝒱₀ L lv) :=
  [ .region (reg0 m ρ Rel),
    .host (hseg hostOps1 hostOps1_sub hostOps1_fresh (W1 m ρ)),
    .region (reg1 m ρ Rel hRel),
    .host (hsegLast m ρ Rel) ]

theorem main_run (c : Dev nD) : main (F := F) c = Pipeline.RDat.Seg.run (segs m ρ Rel hRel) := by
  rw [main_chain c, Pipeline.RDat.Seg.run_eq_chain]; rfl

include hRel in
set_option backward.isDefEq.respectTransparency.types false in
/-- THE RUN: from any memory with zero counters every weakly fair execution of @main terminates, nothing faulting, and
    in every final state each unscoped buffer holds the last boundary's contents, for some contents A that region 1's
    write-backs may have left in its arrays. -/
theorem run_main : θ_run defs (onTc (τ := τ) (main (F := F))) ⟨m, fun _ => 0, ρ⟩ (fun r => ∀ c : Dev nD,
      ∃ A : Arr1 (F := F) c, Left1 m ρ Rel c A ∧ ∀ b ∈ Pipeline.ucRefs τ sig, r.2.mem (((c : Thread nD τ)).1, b) = W4 m ρ c A b) :=
  Pipeline.RDat.θ_run_regions_kit (pcfgs (F := F)) adm (rdats m ρ Rel) () cellOf_inj emb₁ defs₀ 𝒱₀ L lv m ρ main (segs m ρ Rel hRel)
    (fun c Q => by rw [main_run m ρ Rel hRel c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ Rel)
    (hch := ⟨fun _ => .rfl, fun _ => .rfl, fun _ => .rfl, fun _ => .rfl, fun c => by
      show iprop(∃ A : Arr1 (F := F) c, ⌜Left1 m ρ Rel c A⌝ ∗ StableHlo.held (c : Thread nD τ) (Pipeline.ucRefs τ sig) (W4 m ρ c A) ∗ R c) ⊢ _
      iintro ⟨%A, %hA, Hh, Hp, HO⟩
      isplitr [HO]
      · iexists A; isplitr; · ipureintro; exact hA
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ A : Arr1 (F := F) c, Left1 m ρ Rel c A ∧ ∀ b ∈ Pipeline.ucRefs τ sig, s.mem (((c : Thread nD τ)).1, b) = W4 m ρ c A b)
    (hfin := fun c s' => by
      iintro ⟨⟨%A, %hA, Hh, -⟩, HSI⟩
      unfold StableHlo.held
      ihave Hr := (pointsTo_read_all (Pipeline.ucRefs τ sig) (fun b => (((c : Thread nD τ)).1, b)) (W4 m ρ c A) s') $$ [Hh HSI]
      · isplitl [Hh] <;> iassumption
      icases Hr with ⟨%h, HSI⟩
      imodintro
      isplitr
      · ipureintro; exact ⟨A, hA, h⟩
      iexact HSI)
    (hQ := fun s h c => h c)

end Cert.Kernel.Run

end
-- ==== Proof.ArgsK.lean ====
/-
  The two arguments end as launched. Walking back from the end of @main: the last reshape writes only the result;
  region 1's arrays are x in its second format, the scaled weight and the product, none of them an argument; the two
  host operations between the regions write x's reshaped copy and its second format; region 0 reads the weight through
  an input window, which leaves the array as it was, and x is not among its arrays. So at the end each argument's
  buffer holds what the launch memory held.
-/
import proofs.«167918_j15805479649501_2_alg».proof.Proof.RunK

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [BitOps F]

variable (m : (ℓ : Loc nD τ sig) → Buf (Elt F) ℓ) (ρ : Dev nD → PrngReg)

/-- x is written by no host operation and is an array of neither region. -/
theorem W4_main_arg0 (c : Dev nD) (A : Arr1 (F := F) c) :
    W4 m ρ c A (Proc.devRef .tc main_arg0) = m ((c : Thread nD τ).loc main_arg0) :=
  calc W4 m ρ c A (Proc.devRef .tc main_arg0)
    _ = W3 m ρ c A (Proc.devRef .tc main_arg0) :=
        StableHlo.after_of_forall_not_mem (b := Proc.devRef .tc main_arg0) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W2 m ρ c (Proc.devRef .tc main_arg0) := W3_of_ne m ρ c A main_arg0 (by decide)
    _ = W1 m ρ c (Proc.devRef .tc main_arg0) :=
        StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

/-- The weight is written by no host operation, is not an array of region 1, and is region 0's input array: an input
    window leaves its array as the region found it. -/
theorem W4_main_arg1 (c : Dev nD) (A : Arr1 (F := F) c) :
    W4 m ρ c A (Proc.devRef .tc main_arg1) = m ((c : Thread nD τ).loc main_arg1) :=
  calc W4 m ρ c A (Proc.devRef .tc main_arg1)
    _ = W3 m ρ c A (Proc.devRef .tc main_arg1) :=
        StableHlo.after_of_forall_not_mem (b := Proc.devRef .tc main_arg1) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W2 m ρ c (Proc.devRef .tc main_arg1) := W3_of_ne m ρ c A main_arg1 (by decide)
    _ = W1 m ρ c (Proc.devRef .tc main_arg1) :=
        StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg1) :=
        (W1_arr m ρ c 0).trans (((dat0 (V0 m ρ) c).arrAt_in 0 rfl _).trans (A_eq0 (V0 m ρ) c 0))
    _ = m ((c : Thread nD τ).loc main_arg1) := rfl

end Cert.Kernel.Run

end
-- ==== Proof.BodyKI.lean ====
/-
  The two kernel regions of the program, each at a parameter V (the TensorCore's buffer contents when the region is
  entered), for any float instance.
  Region 0 scales one 256-row block of the weight per grid point: its body loads the block, stores one pure function
  of it, and every block lies inside the array, so what each staging buffer holds after the body is a function of
  the point alone.
  Region 1 multiplies a 1024-row block of x by a 512-row block of the scaled weight. The weight has 11008 = 21·512 + 256
  rows: the last block of the weight (and of the result's columns) overhangs the array, its fetch lands 256 rows and
  leaves the buffer's other 256 rows at words nothing names, and the product the body stores may depend on them. So
  for the result's buffer nothing is NAMED: the proof data of region 1 relates what the body is handed to what it
  leaves — the two inputs as found, the result in a relation `Rel` that the caller chooses (nothing at all for a frame;
  an equation on the columns inside the array where the arithmetic allows it).
-/
import proofs.«167918_j15805479649501_2_alg».proof.Proof.Gen.KernelIdeal.Launch
import proofs.«167918_j15805479649501_2_alg».proof.Proof.Gen.KernelIdeal.Skeleton
import proofs.«167918_j15805479649501_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: one block of the weight scaled per point -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 4096 buffer as a rectangle: what the body loads and stores through. -/
abbrev r0 : Rect S256x4096 := Rect.unit (s := S256x4096) ![0, 0] S256x4096.size inb_S256x4096_S256x4096_0_0

/-- The result's staging buffer after the body: the one store's payload over the loaded block. -/
def out0_1 (x0 : Vec F S256x4096 .f32) : Vec F S256x4096 .bf16 :=
  View.canon [⟨r0, k0_pay1 (View.ld x0 r0)⟩]

theorem cover0_1 (p0 : Vec F S256x4096 .bf16) (y : S256x4096.Idx) :
    ∃ pc ∈ ([⟨r0, p0⟩] : List (View.Piece (Elt F) S256x4096 .bf16)), y ∈ pc.1.set :=
  View.cover_of_tiled [⟨r0, p0⟩] S256x4096.size (by rfl) y

set_option maxHeartbeats 1000000 in
/-- The body on whole staging memrefs, the input's at contents x0 and the result's at anything, leaves the input's as it
    was and the result's at `out0_1 x0`. -/
theorem sound_kernel0 (c : Dev nD) (E : Set ℕ) (i : grid0.Coords) (arg1 : Memref sig .tc .vmem S256x4096 .f32) (harg1 : arg1.IsWhole)
    (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__dequant_kernel i arg1 harg1 arg2 harg2) K := by
  simp only [cc0__dequant_kernel_eq_skeleton]; unfold cc0__dequant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of region 0 on core c: the arrays as the region finds them; after the body at point t the input's
    buffer at its block and the result's at `out0_1` of it; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! # Region 1: a block of x against a block of the scaled weight -/

/-- Window w's block at point t, read off its array as the region finds it: for the weight's last block and the
    result's last column block, the part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three whole buffers as rectangles: what the body loads and stores through. -/
abbrev r1x : Rect S1024x4096 := Rect.unit (s := S1024x4096) ![0, 0] S1024x4096.size inb_S1024x4096_S1024x4096_0_0
abbrev r1w : Rect S512x4096 := Rect.unit (s := S512x4096) ![0, 0] S512x4096.size inb_S512x4096_S512x4096_0_0
abbrev r1o : Rect S1024x512 := Rect.unit (s := S1024x512) ![0, 0] S1024x512.size inb_S1024x512_S1024x512_0_0

/-- The result's staging buffer after the body: the one store's payload, the product of the two loaded buffers. -/
def out1_2 (x0 : Vec F S1024x4096 .bf16) (x1 : Vec F S512x4096 .bf16) : Vec F S1024x512 .f32 :=
  View.canon [⟨r1o, k1_pay1 (View.ld x0 r1x) (View.ld x1 r1w)⟩]

theorem cover1_2 (p0 : Vec F S1024x512 .f32) (y : S1024x512.Idx) :
    ∃ pc ∈ ([⟨r1o, p0⟩] : List (View.Piece (Elt F) S1024x512 .f32)), y ∈ pc.1.set :=
  View.cover_of_tiled [⟨r1o, p0⟩] S1024x512.size (by rfl) y

set_option maxHeartbeats 1000000 in
/-- The body on whole staging memrefs, the inputs' at contents x0 and x1 and the result's at anything, leaves the inputs'
    as they were and the result's at `out1_2 x0 x1`. -/
theorem sound_kernel1 (c : Dev nD) (E : Set ℕ) (i : grid1.Coords) (arg2 : Memref sig .tc .vmem S1024x4096 .bf16) (harg2 : arg2.IsWhole)
    (arg3 : Memref sig .tc .vmem S512x4096 .bf16) (harg3 : arg3.IsWhole) (arg4 : Memref sig .tc .vmem S1024x512 .f32) (harg4 : arg4.IsWhole)
    (x0 : Vec F S1024x4096 .bf16) (x1 : Vec F S512x4096 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__matmul_kernel i arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

-- what is asked of the result's staging buffer after the body at a point: the caller's choice
variable (Rel : (c : Dev nD) → Fin cfg1.N → (S1024x512.Idx → Elt F .f32) → Prop)

/-- The proof data of region 1 on core c, relational: the arrays as the region finds them; the body leaves each input's
    buffer as it found it and the result's in `Rel`; nothing owed; full shares. -/
def rdat1 (c : Dev nD) : RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => Rel c t X
  Φ _ := Pipeline.ΦA spec1 c
  q _ := fullShare
  owed _ := 0

theorem rA_eq1 (c : Dev nD) (w : Fin cfg1.W) : (rdat1 V Rel c).A w = V c (Pipeline.arrRef spec1 w) := by
  dsimp only [rdat1]

/-- What the body finds in x's buffer at any point, fetched there or not: x's block (the window is not cut). -/
theorem finds1_0 (c : Dev nD) (t : Fin cfg1.N) (Y : (cfg1.win 0).block.Idx → Elt F (cfg1.win 0).elt)
    (h : (rdat1 V Rel c).Finds 0 t Y) : Y = iblk1 V c 0 t := by
  obtain ⟨d, hd⟩ := (rdat1 V Rel c).finds_in_eq_fetched 0 rfl (fun _ _ _ => rfl)
    (fun t Y X hX => by dsimp only [rdat1] at hX; exact hX) t Y h
  rw [hd]
  unfold RDat.fetched RDat.blockOf iblk1
  rw [rA_eq1]; try rfl

/-- What it finds in the weight's buffer: fetched at every point, its block on the rows the fetch lands and words nothing
    names on the others. -/
theorem finds1_1 (c : Dev nD) (t : Fin cfg1.N) (Y : (cfg1.win 1).block.Idx → Elt F (cfg1.win 1).elt)
    (h : (rdat1 V Rel c).Finds 1 t Y) : ∃ d, Y = (cfg1.win 1).fill (cfg1.grid.coords t) d (iblk1 V c 1 t) := by
  obtain ⟨d, hd⟩ := ((rdat1 V Rel c).finds_of_fetch (fetch1_1 t) Y).mp h
  refine ⟨d, hd.trans ?_⟩
  unfold RDat.fetched RDat.blockOf iblk1
  rw [rA_eq1]

/-- The body obligation of region 1, given that `Rel` holds of the product of x's block with ANY filling-out of the weight's. -/
theorem body_obligation1
    (hRel : ∀ (c : Dev nD) (t : Fin cfg1.N) (d : (cfg1.win 1).block.Idx → Elt F (cfg1.win 1).elt),
      Rel c t (out1_2 (iblk1 V c 0 t) ((cfg1.win 1).fill (cfg1.grid.coords t) d (iblk1 V c 1 t))))
    (c : Dev nD) : (rdat1 V Rel c).BodyObligation (defs₀ (F := F)) Variants.none () Set.univ := fun t Y hY => by
  rw [bigSep_W1, bigSep_W1]
  have h0 := finds1_0 V Rel c t (Y 0) (hY 0)
  obtain ⟨d1, h1⟩ := finds1_1 V Rel c t (Y 1) (hY 1)
  rw [show (rdat1 V Rel c).Φ t.succ = (rdat1 V Rel c).Φ t.castSucc from rfl,
    show (rdat1 V Rel c).owesAt () t.succ = (rdat1 V Rel c).owesAt () t.castSucc from rfl]
  show _ ⊢ wp frame (wpE (defs₀ (F := F)) Variants.none c none) Set.univ (bodyAt1 t) _
  iintro ⟨HΦ, Ho, H0, H1, H2⟩
  iapply (sound_kernel1 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists (out1_2 (Y 0) (Y 1)); isplitr
  · ipureintro
    show Rel c t (out1_2 (Y 0) (Y 1))
    rw [h0, h1]; exact hRel c t d1
  iexact H2

end Cert.KernelIdeal.Body

end
-- ==== Proof.RunKI.lean ====
/-
  The run of the whole program, for any float instance: @main is region 0, two host operations (a reshape of x and its
  change of format), region 1, and a last reshape. Between two items the core's unscoped buffers are held whole at a
  valuation: the launch memory; then region 0's result array at what its write-backs leave (a function of the launch
  memory); then the two host operations applied; then, after region 1, its result array at SOME contents its
  write-backs may leave (what the body stores for the last, overhanging block of columns is not a function of the
  arrays, so those contents are not named: the thread state carries them under an existential, with what is known of
  them, `RDat.ArrAt`); then the last reshape applied to that. At the end every unscoped buffer is read against the
  final memory.
-/
import proofs.«167918_j15805479649501_2_alg».proof.Proof.BodyKI

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (Rel : (c : Dev nD) → Fin cfg1.N → (S1024x512.Idx → Elt F .f32) → Prop)

/-! ## The buffer contents at each boundary -/

/-- Core c's buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two host operations (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- The contents region 1's arrays may be left at: one buffer's worth per window. -/
abbrev Arr1 (c : Dev nD) : Type := (w : Fin cfg1.W) → Buf (Elt F) ((cfg1.win w).arr.view.loc (c : Thread nD τ))

/-- At region 1's exit, its arrays at contents A: every other buffer as entered. -/
def W3 (c : Dev nD) (A : Arr1 (F := F) c) : Valuation τ sig (Elt F) :=
  Pipeline.withArrays spec1 c (W2 m ρ c) A
theorem W3_arr (c : Dev nD) (A : Arr1 (F := F) c) (w : Fin cfg1.W) :
    W3 m ρ c A (Proc.devRef .tc (Pipeline.arrRef spec1 w)) = A w := by
  unfold W3; exact Pipeline.withArrays_arr spec1 launch1.win.arr_inj c _ _ w
theorem W3_of_ne (c : Dev nD) (A : Arr1 (F := F) c) (b : Ref sig .tc) (hb : ∀ w, Pipeline.arrRef spec1 w ≠ b) :
    W3 m ρ c A (Proc.devRef .tc b) = W2 m ρ c (Proc.devRef .tc b) := by
  unfold W3; exact Pipeline.withArrays_of_ne spec1 c _ _ b hb
abbrev V3 (c : Dev nD) (A : Arr1 (F := F) c) : (b : Ref sig .tc) → Buf (Elt F) ((c : Thread nD τ).loc b) := fun b => W3 m ρ c A b

/-- After the last reshape. -/
abbrev W4 (c : Dev nD) (A : Arr1 (F := F) c) : Valuation τ sig (Elt F) := StableHlo.after hostOps2 (W3 m ρ c A)

/-! ## The proof data family -/

abbrev adm : (p : Fin 2) → (pcfgs (F := F) p).Adm := fun p => (cfgs p).toPCfg_adm

/-- Every pipeline's proof data, each at its region's entry contents: region 0's exact data read relationally, region 1's
    relational. -/
def rdats : (p : Fin 2) → (c : Dev nD) → RDat τ (Elt F) Unit ℕ (UR sig nD τ) ℕ (Pipeline.pin (pcfgs (F := F)) adm p) c
  | ⟨0, _⟩ => fun c => (dat0 (V0 m ρ) c).toR
  | ⟨1, _⟩ => fun c => rdat1 (V2 m ρ) Rel c

/-- What region 1's arrays may hold at its exit. -/
def Left1 (c : Dev nD) (A : Arr1 (F := F) c) : Prop := ∀ w, (rdat1 (V2 m ρ) Rel c).ArrAt w cfg1.N (A w)

abbrev 𝒱₀ : Variants := Variants.none
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

set_option backward.isDefEq.respectTransparency.types false in
/-- The last host stretch, run from contents known only to exist: for every A that region 1 may have left. -/
def hsegLast : Pipeline.HostSeg (Name := ℕ) (U := UR sig nD τ) (pcfgs (F := F)) defs₀ 𝒱₀ L lv where
  prog := StableHlo.seq hostOps2
  pre c := iprop(∃ A : Arr1 (F := F) c, ⌜Left1 m ρ Rel c A⌝ ∗ StableHlo.held (c : Thread nD τ) (Pipeline.ucRefs τ sig) (W3 m ρ c A) ∗ R c)
  post c := iprop(∃ A : Arr1 (F := F) c, ⌜Left1 m ρ Rel c A⌝ ∗ StableHlo.held (c : Thread nD τ) (Pipeline.ucRefs τ sig) (W4 m ρ c A) ∗ R c)
  run c {β} k K := by
    have hseq := fun (A : Arr1 (F := F) c) => StableHlo.wp_seq (defs := Pipeline.defs (pcfgs (F := F)) defs₀) (Variants.lift 𝒱₀) none Set.univ c
      (Pipeline.ucRefs τ sig) k (K := K) hostOps2
      (fun op h => Pipeline.sub_ucRefs op ((List.forall_iff_forall_mem.mp hostOps2_sub) op h))
      (fun op h => (List.forall_iff_forall_mem.mp hostOps2_fresh) op h) (W3 m ρ c A)
    iintro ⟨Hk, Hbd, ⟨%A, %hA, Hh, HR⟩, -⟩
    iapply (hseq A) $$ [Hbd Hh]
    · isplitl [Hbd] <;> iassumption
    iintro ⟨Hbd, Hh⟩
    iapply Hk
    isplitl [Hbd]; · iexact Hbd
    iexists A; isplitr; · ipureintro; exact hA
    isplitl [Hh] <;> iassumption

/-! ## A region's arrays back among the unscoped buffers -/

/-- Pipeline p's arrays at contents Fn and the unscoped rest at V are the core's unscoped buffers at any valuation V'
    that has the arrays at Fn and agrees with V off them (relational proof data; as the library's lemma for exact data). -/
theorem ubufs_of_arrays {p : Fin 2} (hw : Pipeline.WinFacts (Pipeline.pin (pcfgs (F := F)) adm p).spec)
    (harr : ∀ w, ((Pipeline.pin (pcfgs (F := F)) adm p).spec w).arr.IsWhole) (c : Dev nD)
    (rd : RDat τ (Elt F) Unit ℕ (UR sig nD τ) ℕ (Pipeline.pin (pcfgs (F := F)) adm p) c) (hshare : ∀ w, rd.share w = fullShare)
    (V V' : (b : Ref sig .tc) → Buf (Elt F) ((c : Thread nD τ).loc b))
    (Fn : (w : Fin (Pipeline.pin (pcfgs (F := F)) adm p).W) → Buf (Elt F) (((Pipeline.pin (pcfgs (F := F)) adm p).spec w).arr.view.loc (c : Thread nD τ)))
    (hF : ∀ w, Fn w = V' (Pipeline.arrRef (Pipeline.pin (pcfgs (F := F)) adm p).spec w))
    (hrest : ∀ b, b ∉ Finset.univ.image (Pipeline.arrRef (Pipeline.pin (pcfgs (F := F)) adm p).spec) → V' b = V b) :
    iprop(rd.arrays Fn ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V']
  unfold RDat.arrays
  refine sep_mono (Entails.of_eq (bigSep_congr fun w _ => by rw [(harr w).set_eq_univ, hshare, hF])) (Entails.of_eq ?_)
  unfold Pipeline.unscopedRest
  exact bigSep_congr fun b hb => by rw [hrest b (Finset.mem_sdiff.mp hb).2]

/-- `arraysAt`, opened: the arrays at SOME contents they may hold after every write-back. -/
theorem arraysAt_open (c : Dev nD) :
    ((rdat1 (V2 m ρ) Rel c).arraysAt cfg1.N : sProp 𝕄)
      ⊢ iprop(∃ A : Arr1 (F := F) c, ⌜Left1 m ρ Rel c A⌝ ∗ (rdat1 (V2 m ρ) Rel c).arrays A) := by
  unfold RDat.arraysAt
  iintro Ha
  ihave Ha' := (BI.bigSep_exists_pi Finset.univ (fun w Fw => iprop(⌜(rdat1 (V2 m ρ) Rel c).ArrAt w cfg1.N Fw⌝
      ∗ (cfg1.win w).arr.view.loc (c : Thread nD τ) ↦[(cfg1.win w).arr.view.set]{(rdat1 (V2 m ρ) Rel c).share w} Fw))) $$ Ha
  icases Ha' with ⟨%A, Ha⟩
  ihave Ha2 := (BI.bigSep_pure_sep Finset.univ (fun w => (rdat1 (V2 m ρ) Rel c).ArrAt w cfg1.N (A w))
      (fun w => (cfg1.win w).arr.view.loc (c : Thread nD τ) ↦[(cfg1.win w).arr.view.set]{(rdat1 (V2 m ρ) Rel c).share w} A w)) $$ Ha
  icases Ha2 with ⟨%hA', Ha⟩
  iexists A; isplitr; · ipureintro; exact fun w => hA' w (Finset.mem_univ w)
  unfold RDat.arrays
  iexact Ha

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents for some A region 1
    may have left, the generator register at some state. -/
abbrev Tₙ (c : Dev nD) : sProp 𝕄 :=
  iprop(∃ A : Arr1 (F := F) c, ⌜Left1 m ρ Rel c A⌝ ∗ StableHlo.held (c : Thread nD τ) (Pipeline.ucRefs τ sig) (W4 m ρ c A) ∗ ∃ r, prngReg c r)

/-! ## The regions as segments -/

set_option backward.isDefEq.respectTransparency.types false in
/-- Region 0 over the thread state: entered from every unscoped buffer at the launch contents, left at `W1`. -/
def reg0 : Pipeline.RDat.RegionSeg (pcfgs (F := F)) adm (rdats m ρ Rel) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose.toR
  hwaits := Pipeline.RDat.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.RDat.arrays_of_unscopedBufs (p := 0) (pcfgs (F := F)) adm (rdats m ρ Rel) launch0.win launch0.arr_whole c
      ((rdats m ρ Rel 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ Rel 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ Rel 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := ubufs_of_arrays (p := 0) launch0.win launch0.arr_whole c (rdats m ρ Rel 0 c)
      ((rdats m ρ Rel 0 c).share_full fun _ => rfl)
      (V0 m ρ c) (V1 m ρ c) ((dat0 (V0 m ρ) c).arrAt · cfg0.N) (hF0 m ρ c) (hrest0 m ρ c)
    rw [Pipeline.unscopedBufs_held] at hjoin
    have hopen : ((rdats m ρ Rel 0 c).arraysAt (Pipeline.pin (pcfgs (F := F)) adm 0).N : sProp 𝕄)
        ⊢ (rdats m ρ Rel 0 c).arrays ((dat0 (V0 m ρ) c).arrAt · cfg0.N) := (dat0 (V0 m ρ) c).toR_arraysAt_post cfg0.N
    iintro ⟨Ha, HO, HY, Hrest⟩
    ihave Ha := hopen $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

variable (hRel : ∀ (c : Dev nD) (t : Fin cfg1.N) (d : (cfg1.win 1).block.Idx → Elt F (cfg1.win 1).elt),
      Rel c t (out1_2 (iblk1 (V2 m ρ) c 0 t) ((cfg1.win 1).fill (cfg1.grid.coords t) d (iblk1 (V2 m ρ) c 1 t))))

set_option backward.isDefEq.respectTransparency.types false in
/-- Region 1 over the thread state: entered from every unscoped buffer at `W2`, left at `W3 A` for some A it may leave. -/
def reg1 : Pipeline.RDat.RegionSeg (pcfgs (F := F)) adm (rdats m ρ Rel) () defs₀ 𝒱₀ L lv 1 where
  win := launch1.win.to₀
  block_pos := launch1.block_pos
  stage_whole := launch1.stage_whole
  K := PEmpty
  osem k := k.elim
  ho := Pipeline.OwnSemFacts.none _
  hbody c := body_obligation1 (V2 m ρ) Rel hRel c
  hwaits := Pipeline.RDat.hwaits_of_owed_zero _ _ _ _ L lv 1 fun _ _ => rfl
  pre c := iprop(StableHlo.held (c : Thread nD τ) (Pipeline.ucRefs τ sig) (W2 m ρ c) ∗ R c)
  post c := iprop(∃ A : Arr1 (F := F) c, ⌜Left1 m ρ Rel c A⌝ ∗ StableHlo.held (c : Thread nD τ) (Pipeline.ucRefs τ sig) (W3 m ρ c A) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.RDat.arrays_of_unscopedBufs (p := 1) (pcfgs (F := F)) adm (rdats m ρ Rel) launch1.win launch1.arr_whole c
      ((rdats m ρ Rel 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ Rel 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ Rel 1 c).Φ (Fin.last _) = Pipeline.ΦA spec1 c from rfl]; unfold Pipeline.ΦA
    iintro ⟨Hr, Hp⟩
    isplitl [Hp]; · iexact Hp
    isplitr; · iempintro
    iexact Hr
  hexit c := by
    have hopen : ((rdats m ρ Rel 1 c).arraysAt (Pipeline.pin (pcfgs (F := F)) adm 1).N : sProp 𝕄)
        ⊢ iprop(∃ A : Arr1 (F := F) c, ⌜Left1 m ρ Rel c A⌝ ∗ (rdats m ρ Rel 1 c).arrays A) := arraysAt_open m ρ Rel c
    iintro ⟨Ha, HO, HY, Hrest⟩
    ihave Ha := hopen $$ Ha
    icases Ha with ⟨%A, %hA, Ha⟩
    have hjoin := ubufs_of_arrays (p := 1) launch1.win launch1.arr_whole c (rdats m ρ Rel 1 c)
      ((rdats m ρ Rel 1 c).share_full fun _ => rfl)
      (V2 m ρ c) (V3 m ρ c A) A (fun w => (W3_arr m ρ c A w).symm)
      (fun b hb => W3_of_ne m ρ c A b fun w e => hb (Finset.mem_image.mpr ⟨w, Finset.mem_univ _, e⟩))
    rw [Pipeline.unscopedBufs_held] at hjoin
    imodintro
    iexists A
    isplitr; · ipureintro; exact hA
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m ρ Rel) () defs₀ 𝒱₀ L lv) :=
  [ .region (reg0 m ρ Rel),
    .host (hseg hostOps1 hostOps1_sub hostOps1_fresh (W1 m ρ)),
    .region (reg1 m ρ Rel hRel),
    .host (hsegLast m ρ Rel) ]

theorem main_run (c : Dev nD) : main (F := F) c = Pipeline.RDat.Seg.run (segs m ρ Rel hRel) := by
  rw [main_chain c, Pipeline.RDat.Seg.run_eq_chain]; rfl

include hRel in
set_option backward.isDefEq.respectTransparency.types false in
/-- THE RUN: from any memory with zero counters every weakly fair execution of @main terminates, nothing faulting, and
    in every final state each unscoped buffer holds the last boundary's contents, for some contents A that region 1's
    write-backs may have left in its arrays. -/
theorem run_main : θ_run defs (onTc (τ := τ) (main (F := F))) ⟨m, fun _ => 0, ρ⟩ (fun r => ∀ c : Dev nD,
      ∃ A : Arr1 (F := F) c, Left1 m ρ Rel c A ∧ ∀ b ∈ Pipeline.ucRefs τ sig, r.2.mem (((c : Thread nD τ)).1, b) = W4 m ρ c A b) :=
  Pipeline.RDat.θ_run_regions_kit (pcfgs (F := F)) adm (rdats m ρ Rel) () cellOf_inj emb₁ defs₀ 𝒱₀ L lv m ρ main (segs m ρ Rel hRel)
    (fun c Q => by rw [main_run m ρ Rel hRel c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ Rel)
    (hch := ⟨fun _ => .rfl, fun _ => .rfl, fun _ => .rfl, fun _ => .rfl, fun c => by
      show iprop(∃ A : Arr1 (F := F) c, ⌜Left1 m ρ Rel c A⌝ ∗ StableHlo.held (c : Thread nD τ) (Pipeline.ucRefs τ sig) (W4 m ρ c A) ∗ R c) ⊢ _
      iintro ⟨%A, %hA, Hh, Hp, HO⟩
      isplitr [HO]
      · iexists A; isplitr; · ipureintro; exact hA
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ A : Arr1 (F := F) c, Left1 m ρ Rel c A ∧ ∀ b ∈ Pipeline.ucRefs τ sig, s.mem (((c : Thread nD τ)).1, b) = W4 m ρ c A b)
    (hfin := fun c s' => by
      iintro ⟨⟨%A, %hA, Hh, -⟩, HSI⟩
      unfold StableHlo.held
      ihave Hr := (pointsTo_read_all (Pipeline.ucRefs τ sig) (fun b => (((c : Thread nD τ)).1, b)) (W4 m ρ c A) s') $$ [Hh HSI]
      · isplitl [Hh] <;> iassumption
      icases Hr with ⟨%h, HSI⟩
      imodintro
      isplitr
      · ipureintro; exact ⟨A, hA, h⟩
      iexact HSI)
    (hQ := fun s h c => h c)

end Cert.KernelIdeal.Run

end
-- ==== Proof.ArgsKI.lean ====
/-
  The two arguments end as launched. Walking back from the end of @main: the last reshape writes only the result;
  region 1's arrays are x in its second format, the scaled weight and the product, none of them an argument; the two
  host operations between the regions write x's reshaped copy and its second format; region 0 reads the weight through
  an input window, which leaves the array as it was, and x is not among its arrays. So at the end each argument's
  buffer holds what the launch memory held.
-/
import proofs.«167918_j15805479649501_2_alg».proof.Proof.RunKI

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-- x is written by no host operation and is an array of neither region. -/
theorem W4_main_arg0 (c : Dev nD) (A : Arr1 (F := F) c) :
    W4 m ρ c A (Proc.devRef .tc main_arg0) = m ((c : Thread nD τ).loc main_arg0) :=
  calc W4 m ρ c A (Proc.devRef .tc main_arg0)
    _ = W3 m ρ c A (Proc.devRef .tc main_arg0) :=
        StableHlo.after_of_forall_not_mem (b := Proc.devRef .tc main_arg0) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W2 m ρ c (Proc.devRef .tc main_arg0) := W3_of_ne m ρ c A main_arg0 (by decide)
    _ = W1 m ρ c (Proc.devRef .tc main_arg0) :=
        StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

/-- The weight is written by no host operation, is not an array of region 1, and is region 0's input array: an input
    window leaves its array as the region found it. -/
theorem W4_main_arg1 (c : Dev nD) (A : Arr1 (F := F) c) :
    W4 m ρ c A (Proc.devRef .tc main_arg1) = m ((c : Thread nD τ).loc main_arg1) :=
  calc W4 m ρ c A (Proc.devRef .tc main_arg1)
    _ = W3 m ρ c A (Proc.devRef .tc main_arg1) :=
        StableHlo.after_of_forall_not_mem (b := Proc.devRef .tc main_arg1) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W2 m ρ c (Proc.devRef .tc main_arg1) := W3_of_ne m ρ c A main_arg1 (by decide)
    _ = W1 m ρ c (Proc.devRef .tc main_arg1) :=
        StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W0 m ρ c (Proc.devRef .tc main_arg1) :=
        (W1_arr m ρ c 0).trans (((dat0 (V0 m ρ) c).arrAt_in 0 rfl _).trans (A_eq0 (V0 m ρ) c 0))
    _ = m ((c : Thread nD τ).loc main_arg1) := rfl

end Cert.KernelIdeal.Run

end
-- ==== Proof.Spec.lean ====
/-
  The one function both programs compute, index by index on the extended reals.
  A weight row o is cut into 32 groups of 128 columns; a group's scale is the largest |w| in it, raised to at least ε;
  the effective weight is the sign of the entry times its group's scale; the result is x against the effective weight,
  contracted over the 4096 columns.
-/
import Idealize.ShloMosaic.PureOps.Ideal
import Idealize.ShloMosaic.Lib.ValueIdx

noncomputable section

namespace Cert.OneBit

open Idealize.ShloMosaic Idealize.ShloMosaic.ValueIdx

/-- Column l of group g of a weight row. -/
def gcol (g : Fin 32) (l : Fin 128) : Fin 4096 := ⟨g.val * 128 + l.val, by have := g.isLt; have := l.isLt; omega⟩

/-- The group a column lies in. -/
def grp (k : Fin 4096) : Fin 32 := ⟨k.val / 128, by have := k.isLt; omega⟩

/-- The floor ε under every scale: the binary value of the word both programs carry. -/
def eps : EReal := Ideal.ofBits .f32 0x322BCC77#32

/-- The largest |w| over the 128 columns of group g of row o, folded from -∞. -/
def gmax (w : (⟨2, ![11008, 4096]⟩ : Shape).Idx → EReal) (o : Fin 11008) (g : Fin 32) : EReal :=
  (Finset.univ : Finset (Fin 128)).fold max (Ideal.ofBits .f32 0xFF800000#32)
    (fun l => max (w (ix2 o (gcol g l))) (-(w (ix2 o (gcol g l)))))

/-- The kernel's sign of an entry: for |v| > 0 the unit with v's sign, else v itself. -/
def sgnK (v : EReal) : EReal :=
  Scalar.select (Ideal.cmp .ogt (max v (-v)) (Ideal.ofBits .f32 0x00000000#32))
    (Scalar.select (Ideal.cmp .olt v (Ideal.ofBits .f32 0x00000000#32)) (Ideal.ofBits .f32 0xBF800000#32) (Ideal.ofBits .f32 0x3F800000#32)) v

/-- The kernel's effective weight at (o, k). -/
def weffK (w : (⟨2, ![11008, 4096]⟩ : Shape).Idx → EReal) (o : Fin 11008) (k : Fin 4096) : EReal :=
  sgnK (w (ix2 o k)) * max (gmax w o (grp k)) eps

/-- The reference's effective weight at (o, k): the sign of the entry over its scale, times the scale. -/
def weffR (w : (⟨2, ![11008, 4096]⟩ : Shape).Idx → EReal) (o : Fin 11008) (k : Fin 4096) : EReal :=
  Ideal.sign (Ideal.div (w (ix2 o k)) (max eps (gmax w o (grp k)))) * max eps (gmax w o (grp k))

/-- The result at (b, s, o): x's row (b, s) against row o of an effective weight. -/
def out (x : (⟨3, ![4, 2048, 4096]⟩ : Shape).Idx → EReal) (W : Fin 11008 → Fin 4096 → EReal)
    (i : (⟨3, ![4, 2048, 11008]⟩ : Shape).Idx) : EReal :=
  ∑ k : Fin 4096, x (ix3 (i 0) (i 1) k) * W (i 2) k

end Cert.OneBit

end
-- ==== Proof.LibMatmulNT.lean ====
/-
  A rank-2 by rank-2 matrix product against a TRANSPOSED right operand, read at an index, at the ideal instance.

  For dimension numbers that contract the left operand's axis 1 with the right operand's axis 1 (a[M, K] against
  b[N, K], the product a · bᵀ with no transpose operation) and have no batch axis, the entry (r, c) of the product
  into a zero accumulator is the plain sum over k of a(r, k) * b(c, k) on the extended reals. The two side facts
  about the free axes (hl0, hr0) are decided once per literal record of dimension numbers.
-/
import Idealize.ShloMosaic.PureOps.Ideal.Laws
import Idealize.ShloMosaic.Lib.ValueIdx

noncomputable section

namespace Idealize.ShloMosaic.MatmulNT

open Idealize.ShloMosaic Idealize.ShloMosaic.ValueIdx

variable {M K N : Nat} {φ₁ φ₂ : FTy}

/-- The operand indices of such a product at output index `i` and contraction position `k` are (i 0, k) and (i 1, k). -/
theorem operand_indices
    (d : DotDims (⟨2, ![M, K]⟩ : Shape) (⟨2, ![N, K]⟩ : Shape) (⟨2, ![M, N]⟩ : Shape))
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 (i 1) k := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact hr0 _ _
    | ⟨1, _⟩ => exact (d.rhsIdx_val_of_single hcr _ _).trans hk

/-- A kernel's product a · bᵀ into the zero accumulator, entry by entry. -/
theorem matmul_zero_apply
    (d : DotDims (⟨2, ![M, K]⟩ : Shape) (⟨2, ![N, K]⟩ : Shape) (⟨2, ![M, N]⟩ : Shape)) (prec : Option ContractPrecision)
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (a : FVec Ideal (⟨2, ![M, K]⟩ : Shape) φ₁) (b : FVec Ideal (⟨2, ![N, K]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 (i 1) k) := by
  rw [Ideal.matmul_constant_zero_apply, ← Equiv.sum_comp (contrEquiv1 d K hrk hs).symm]
  refine Finset.sum_congr rfl fun k _ => ?_
  obtain ⟨el, er⟩ := operand_indices d hcl hcr hrk hs hl0 hr0 i k
  rw [el, er]
  rfl

end Idealize.ShloMosaic.MatmulNT

end
-- ==== Proof.PayValue.lean ====
/-
  The kernel's two payloads read at an index, on the extended reals.

  The product payload at (r, c) is the sum over the 4096 columns of a(r, k) * b(c, k).
  The weight payload at (r, k) is the sign term of the entry times the scale of its group of 128 columns:
  the largest |w| of the group (folded from -∞), raised to at least ε.
-/
import proofs.«167918_j15805479649501_2_alg».proof.Proof.Gen.KernelIdeal.Skeleton
import proofs.«167918_j15805479649501_2_alg».proof.Proof.Spec
import proofs.«167918_j15805479649501_2_alg».proof.Proof.LibMatmulNT
import Idealize.ShloMosaic.Lib.Pipeline.Value
import Idealize.ShloMosaic.PureOps.Ideal.Laws

noncomputable section

namespace Cert.OneBit.Pay

open Cert.KernelIdeal Cert.KernelIdeal.Gen Idealize.ShloMosaic Idealize.ShloMosaic.ValueIdx

/-! ## The product payload -/

/-- The free axis of the left operand is the result's axis 0. -/
theorem dot_lhs0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl

/-- The free axis of the right operand is the result's axis 1. -/
theorem dot_rhs0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl

/-- The product payload at (r, c): a's row r against b's row c. -/
theorem pay1_apply (a : Vec Ideal S1024x4096 .bf16) (b : Vec Ideal S512x4096 .bf16) (r : Fin 1024) (c : Fin 512) :
    k1_pay1 (F := Ideal) a b (ix2 r c) = ∑ k : Fin 4096, a (ix2 r k) * b (ix2 c k) := by
  unfold k1_pay1
  simp only [shapeCast_self]
  exact MatmulNT.matmul_zero_apply dot_S1024x4096_S512x4096_S1024x512_1_1_0_0_n_n none rfl rfl rfl rfl dot_lhs0 dot_rhs0 a b (ix2 r c)

/-! ## The weight payload -/

/-- The position of a column inside its group. -/
def lane (k : Fin 4096) : Fin 128 := ⟨k.val % 128, Nat.mod_lt _ (by decide)⟩

/-- A column is its group's column at its own position. -/
theorem gcol_grp_lane (k : Fin 4096) : gcol (grp k) (lane k) = k := by
  apply Fin.ext
  show k.val / 128 * 128 + k.val % 128 = k.val
  omega

/-- Row-major, (r, g, l) of [256, 32, 128] is (r, g * 128 + l) of [256, 4096]: the cut into groups read at an index. -/
theorem cast_in (v : FVec Ideal S256x4096 .f32) (h : S256x4096.ShapeCasts S256x32x128) (r : Fin 256) (g : Fin 32) (l : Fin 128) :
    shapeCast S256x32x128 v h (ix3 r g l) = v (ix2 r (gcol g l)) := by
  refine shapeCast_apply v h _ _ ?_
  rw [Shape.rowMajor_val_two, Shape.rowMajor_val_three]
  show r.val * 4096 + (g.val * 128 + l.val) = (r.val * 32 + g.val) * 128 + l.val
  omega

/-- The way back: (r, k) of [256, 4096] is (r, k / 128, k % 128) of [256, 32, 128]. -/
theorem cast_out (w : FVec Ideal S256x32x128 .f32) (h : S256x32x128.ShapeCasts S256x4096) (r : Fin 256) (k : Fin 4096) :
    shapeCast S256x4096 w h (ix2 r k) = w (ix3 r (grp k) (lane k)) := by
  refine shapeCast_apply w h _ _ ?_
  rw [Shape.rowMajor_val_two, Shape.rowMajor_val_three]
  show (r.val * 32 + k.val / 128) * 128 + k.val % 128 = r.val * 4096 + k.val
  omega

/-- A trailing unit axis added: (r, g, 0) of [256, 32, 1] is (r, g) of [256, 32]. -/
theorem cast_unit (w : FVec Ideal S256x32 .f32) (h : S256x32.ShapeCasts S256x32x1) (r : Fin 256) (g : Fin 32) (z : Fin 1) :
    shapeCast S256x32x1 w h (ix3 r g z) = w (ix2 r g) := by
  refine shapeCast_apply w h _ _ ?_
  rw [Shape.rowMajor_val_two, Shape.rowMajor_val_three]
  show r.val * 32 + g.val = (r.val * 32 + g.val) * 1 + z.val
  omega

/-- The unit axis stretched over the 128 positions: every position of group g reads the group's one value. -/
theorem bcast_at (w : FVec Ideal S256x32x1 .f32) (h : S256x32x1.Broadcasts S256x32x128) (r : Fin 256) (g : Fin 32) (l : Fin 128) :
    broadcastTo S256x32x128 w h (ix3 r g l) = w (ix3 r g (0 : Fin 1)) := by
  refine broadcastTo_apply w h _ _ fun a => ?_
  match a with
  | ⟨0, _⟩ => rfl
  | ⟨1, _⟩ => rfl
  | ⟨2, _⟩ => rfl

/-- The index over (r, g) with position l put back on the dropped axis is (r, g, l). -/
theorem lift_ix3 (h : S256x32x128.Reduces [2] S256x32) (r : Fin 256) (g : Fin 32) (l : Fin (S256x32x128.size 2)) :
    h.lift (ix2 r g) l = ix3 r g (⟨l.val, l.isLt⟩ : Fin 128) := by
  funext c; apply Fin.ext
  fin_cases c <;> rfl

/-- The maximum over the positions of a group, folded from -∞, read at (r, g). -/
theorem reduce_at (w : FVec Ideal S256x32x128 .f32) (h : S256x32x128.Reduces [2] S256x32) (hφ : FKind.Formats .f32)
    (hacc : (0xFF800000#32 : BitVec (FTy.bits .f32)) = FKind.maximumf.neutral .f32 hφ) (r : Fin 256) (g : Fin 32) :
    multiReduction .maximumf [2] S256x32 w 0xFF800000#32 h hφ hacc (ix2 r g)
      = (Finset.univ : Finset (Fin 128)).fold max (Ideal.ofBits .f32 0xFF800000#32) (fun l => w (ix3 r g l)) := by
  refine (Ideal.multiReduction_maximumf_single w _ h hφ hacc (ix2 r g)).trans ?_
  have hf : (w ∘ h.lift (ix2 r g)) = fun l : Fin 128 => w (ix3 r g l) := funext fun l => congrArg w (lift_ix3 h r g l)
  exact congrArg (fun f => Finset.fold max (Ideal.ofBits .f32 0xFF800000#32) f (Finset.univ : Finset (Fin 128))) hf

/-- The weight payload at (r, k): the sign term of the entry times its group's scale. -/
theorem pay0_apply (v : Vec Ideal S256x4096 .f32) (r : Fin 256) (k : Fin 4096) :
    k0_pay1 (F := Ideal) v (ix2 r k) = Cert.OneBit.sgnK (v (ix2 r k)) * max ((Finset.univ : Finset (Fin 128)).fold max (Ideal.ofBits .f32 0xFF800000#32) (fun l => max (v (ix2 r (Cert.OneBit.gcol (Cert.OneBit.grp k) l))) (-(v (ix2 r (Cert.OneBit.gcol (Cert.OneBit.grp k) l)))))) Cert.OneBit.eps := by
  unfold k0_pay1
  rw [truncf_apply]
  refine (cast_out _ _ r k).trans ?_
  rw [mulf_apply]
  refine congrArg₂ (· * ·) ?_ ?_
  · -- the sign term reads the entry itself
    have e := (cast_in v Facts₀.shapeCasts_S256x4096_S256x32x128 r (grp k) (lane k)).trans (congrArg (fun c => v (ix2 r c)) (gcol_grp_lane k))
    exact congrArg sgnK e
  · -- the scale: the group's one value at every position
    refine (bcast_at _ _ r (grp k) (lane k)).trans ?_
    rw [maximumf_apply, broadcast_apply]
    refine congrArg₂ max ?_ rfl
    refine (cast_unit _ _ r (grp k) 0).trans ?_
    refine (reduce_at _ _ _ _ r (grp k)).trans ?_
    refine congrArg (fun f => Finset.fold max (Ideal.ofBits .f32 0xFF800000#32) f (Finset.univ : Finset (Fin 128))) (funext fun l => ?_)
    have e := cast_in v Facts₀.shapeCasts_S256x4096_S256x32x128 r (grp k) l
    exact congrArg (fun x : EReal => max x (-x)) e

end Cert.OneBit.Pay

end
-- ==== Proof.ValueKI.lean ====
/-
  What the idealized kernel's run leaves in its result, on the extended reals.
  Region 0 leaves in the scaled-weight array, row by row, the sign of each weight times its group's scale: one block
  of 256 rows per grid point, each block the same function of the weight's rows, the 43 blocks covering the array.
-/
import proofs.«167918_j15805479649501_2_alg».proof.Proof.RunKI
import proofs.«167918_j15805479649501_2_alg».proof.Proof.PayValue
import proofs.«167918_j15805479649501_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Body Cert.KernelIdeal.Run
open Idealize.ShloMosaic Idealize.ShloMosaic.TcCoe Idealize.ShloMosaic.ValueIdx Idealize.SL.Sem
open Idealize.ShloMosaic.Pipeline (Dat RDat)
open Cert.OneBit

variable (m : (ℓ : Loc nD τ sig) → Buf (Elt Ideal) ℓ) (ρ : Dev nD → PrngReg)

theorem hz : (![0, 0] : Fin 2 → Nat) = fun _ => 0 := funext fun a => by fin_cases a <;> rfl

/-! ## Region 0 -/

/-- The scaled weight as one whole array: entry (o, k) is the kernel's effective weight there. -/
def G0 (w : S11008x4096.Idx → EReal) : S11008x4096.Idx → EReal :=
  fun j => weffK w ⟨(j 0).val, (j 0).isLt⟩ ⟨(j 1).val, (j 1).isLt⟩

/-- The dequant payload at (r, k) of a block whose row r is row o of the weight: the effective weight at (o, k). -/
theorem pay0_weff (v : Vec Ideal S256x4096 .f32) (w : S11008x4096.Idx → EReal) (r : Fin 256) (o : Fin 11008) (k : Fin 4096)
    (hv : ∀ k' : Fin 4096, v (ix2 r k') = w (ix2 o k')) : k0_pay1 (F := Ideal) v (ix2 r k) = weffK w o k := by
  rw [Cert.OneBit.Pay.pay0_apply]; unfold weffK gmax; simp only [hv]

/-- The block index of both windows of region 0 at point t is (t, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row r of the weight's block at point t is row 256 t + r of the weight. -/
theorem blk0_read (c : Dev nD) (t : Fin cfg0.N) (r : Fin 256) (k : Fin 4096) (o : Fin 11008) (ho : o.val = t.val * 256 + r.val) :
    iblk0 (V0 m ρ) c 0 t (ix2 r k) = m ((c : Thread nD τ).loc main_arg1) (ix2 o k) := by
  unfold iblk0
  show V0 m ρ c main_arg1 (((cfg0.win 0).blk t).view.emb (ix2 r k)) = _
  refine congrArg (m ((c : Thread nD τ).loc main_arg1)) (funext fun a => Fin.ext ?_)
  match a with
  | ⟨0, _⟩ => show win0_0.index t (0 : Fin 2) * 256 + 1 * r.val = o.val; rw [(idx0 t).1]; omega
  | ⟨1, _⟩ => show win0_0.index t (1 : Fin 2) * 4096 + 1 * k.val = k.val; rw [(idx0 t).2.1]; omega

/-- The dequant payload at an index y of a block whose row (y 0) is row o of the weight. -/
theorem pay0_at (v : Vec Ideal S256x4096 .f32) (w : S11008x4096.Idx → EReal) (y : S256x4096.Idx) (o : Fin 11008)
    (hv : ∀ k' : Fin 4096, v (ix2 ⟨(y 0).val, (y 0).isLt⟩ k') = w (ix2 o k')) :
    k0_pay1 (F := Ideal) v y = weffK w o ⟨(y 1).val, (y 1).isLt⟩ := by
  obtain ⟨r, k, rfl⟩ : ∃ (r : Fin 256) (k : Fin 4096), y = ix2 r k := ⟨y 0, y 1, eq_ix2 y⟩
  exact pay0_weff v w r o k hv

/-- What point t writes back is block t of the scaled weight. -/
theorem flushed0_eq (c : Dev nD) (t : Fin cfg0.N) :
    (dat0 (V0 m ρ) c).flushed 1 t = ((cfg0.win 1).blk t).view.read (Elt Ideal) (G0 (m ((c : Thread nD τ).loc main_arg1))) := by
  show (cfg0.win 1).cut (grid0.coords t) ((dat0 (V0 m ρ) c).after 1 t) = _
  rw [after0_1]
  unfold out0_1
  rw [View.canon_unit_zero hz]
  simp only [View.ld_unit_zero (S := S256x4096) hz]
  funext y
  have hN : cfg0.N = 43 := N_0
  have h0 : (y 0).val < 256 := (y 0).isLt
  have h1 : (y 1).val < 4096 := (y 1).isLt
  have hlt : t.val * 256 + (y 0).val < 11008 := by have := t.isLt; omega
  refine (pay0_at (iblk0 (V0 m ρ) c 0 t) (m ((c : Thread nD τ).loc main_arg1)) ((cfg0.win 1).xinj (grid0.coords t) y)
    ⟨t.val * 256 + (y 0).val, hlt⟩ (fun k' => blk0_read m ρ c t ⟨(y 0).val, h0⟩ k' ⟨t.val * 256 + (y 0).val, hlt⟩ rfl)).trans ?_
  show _ = G0 _ (((cfg0.win 1).blk t).view.emb y)
  refine congrArg₂ (weffK (m ((c : Thread nD τ).loc main_arg1))) (Fin.ext ?_) (Fin.ext ?_)
  · show t.val * 256 + (y 0).val = win0_1.index t (0 : Fin 2) * 256 + 1 * (y 0).val
    rw [(idx0 t).2.2.1]; omega
  · show (y 1).val = win0_1.index t (1 : Fin 2) * 4096 + 1 * (y 1).val
    rw [(idx0 t).2.2.2]; omega

theorem mem_blk0 (t : Fin cfg0.N) (i : S11008x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- Every entry of the scaled-weight array lies in the block of the point its row falls in. -/
theorem cover0 (i : S11008x4096.Idx) : ∃ t : Fin cfg0.N, (cfg0.win 1).flush t = true ∧ i ∈ ((cfg0.win 1).blk t).view.set := by
  have hi0 : (i 0).val < 11008 := (i 0).isLt
  have hi1 : (i 1).val < 4096 := (i 1).isLt
  have hN : cfg0.N = 43 := N_0
  refine ⟨⟨(i 0).val / 256, by rw [hN]; omega⟩, flush0_1 _, ?_⟩
  rw [mem_blk0]
  intro a
  obtain ⟨-, -, e2, e3⟩ := idx0 ⟨(i 0).val / 256, by rw [hN]; omega⟩
  match a with
  | ⟨0, _⟩ => show win0_1.index _ (0 : Fin 2) * 256 ≤ (i 0).val ∧ (i 0).val < win0_1.index _ (0 : Fin 2) * 256 + 256; rw [e2]; show (i 0).val / 256 * 256 ≤ _ ∧ _ < (i 0).val / 256 * 256 + 256; omega
  | ⟨1, _⟩ => show win0_1.index _ (1 : Fin 2) * 4096 ≤ (i 1).val ∧ (i 1).val < win0_1.index _ (1 : Fin 2) * 4096 + 4096; rw [e3]; omega

/-- After region 0 the scaled-weight array holds the effective weight of the launch weight, whole. -/
theorem V1_main_v0 (c : Dev nD) : (V1 m ρ c main_v0 : S11008x4096.Idx → EReal) = G0 (m ((c : Thread nD τ).loc main_arg1)) :=
  (W1_arr m ρ c 1).trans ((dat0 (V0 m ρ) c).arrAt_eq_of_cover 1 _ (fun t _ => flushed0_eq m ρ c t) cover0)

end Cert.KernelIdeal.Val

end
-- ==== Proof.ValueR1.lean ====
/-
  Region 1 on the extended reals, and the host operations around it.
  Between the regions x is reshaped to 8192 rows (row R is x's row (R / 2048, R % 2048)) and its format changed, which
  at the ideal values is the identity. Region 1's body stores the product of a 1024-row block of that with a 512-row
  block of the scaled weight: entry (r, q) is the sum over the 4096 columns of x's row r times the weight's row q. An
  entry whose column lies inside the array reads a weight row the fetch landed, so it is the same function of the arrays
  whatever the buffer's other rows hold: on the columns inside the array every point's block is a block of ONE array,
  and the 8 × 22 blocks cover the result.
-/
import proofs.«167918_j15805479649501_2_alg».proof.Proof.RunKI
import proofs.«167918_j15805479649501_2_alg».proof.Proof.PayValue
import proofs.«167918_j15805479649501_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.ValR

open Cert.KernelIdeal Cert.KernelIdeal.Gen Cert.KernelIdeal.Body Cert.KernelIdeal.Run
open Idealize.ShloMosaic Idealize.ShloMosaic.TcCoe Idealize.ShloMosaic.ValueIdx Idealize.SL.Sem
open Idealize.ShloMosaic.Pipeline (Dat RDat)
open Cert.OneBit

variable (m : (ℓ : Loc nD τ sig) → Buf (Elt Ideal) ℓ) (ρ : Dev nD → PrngReg)

theorem hz : (![0, 0] : Fin 2 → Nat) = fun _ => 0 := funext fun a => by fin_cases a <;> rfl

/-! ## The host operations between the regions -/

/-- The two host operations do not write the scaled-weight array. -/
theorem V2_main_v0 (c : Dev nD) : V2 m ρ c main_v0 = V1 m ρ c main_v0 :=
  StableHlo.after_of_forall_not_mem (b := Proc.devRef .tc main_v0) _ _ (List.forall_iff_forall_mem.mp (by
    simp only [hostOps1, List.Forall, StableHlo.unary_writes, StableHlo.reshape_writes, Finset.mem_singleton]
    repeat' apply And.intro
    all_goals exact StableHlo.devRef_ne_of_ne (by decide)))

/-- x reshaped to 8192 rows, its format changed. -/
def xbOf (x : FVec Ideal S4x2048x4096 .f32) : FVec Ideal S8192x4096 .bf16 :=
  truncf .bf16 (shapeCast S8192x4096 x shapeCasts_S4x2048x4096_S8192x4096) bitsLt_bf16_f32

/-- The two host operations leave that of the launch x in `main_v2`. -/
theorem V2_main_v2 (c : Dev nD) : @Eq (FVec Ideal S8192x4096 .bf16) (V2 m ρ c main_v2) (xbOf (m ((c : Thread nD τ).loc main_arg0))) := by
  show StableHlo.after hostOps1 (W1 m ρ c) (Proc.devRef .tc main_v2) = _
  after_results
  rw [W1_of_ne m ρ c main_arg0 (by decide)]
  rfl

/-- Row R of it is x's row (R / 2048, R % 2048). -/
theorem xbOf_apply (x : FVec Ideal S4x2048x4096 .f32) (R : Fin 8192) (k : Fin 4096) (b : Fin 4) (s : Fin 2048) (hR : R.val = b.val * 2048 + s.val) :
    xbOf x (ix2 R k) = x (ix3 b s k) := by
  unfold xbOf
  refine (truncf_apply (ψ := .bf16) (shapeCast S8192x4096 x shapeCasts_S4x2048x4096_S8192x4096) bitsLt_bf16_f32 (ix2 R k)).trans ?_
  exact shapeCast_apply x shapeCasts_S4x2048x4096_S8192x4096 (ix2 R k) (ix3 b s k)
    (by rewrite [Shape.rowMajor_val_three, Shape.rowMajor_val_two]
        show (b.val * 2048 + s.val) * 4096 + k.val = R.val * 4096 + k.val
        rw [hR])

theorem xb_at (c : Dev nD) (R : Fin 8192) (k : Fin 4096) (b : Fin 4) (s : Fin 2048) (hR : R.val = b.val * 2048 + s.val) :
    @Eq EReal (V2 m ρ c main_v2 (ix2 R k)) (m ((c : Thread nD τ).loc main_arg0) (ix3 b s k)) :=
  (congrFun (V2_main_v2 m ρ c) (ix2 R k)).trans (xbOf_apply _ R k b s hR)

/-! ## Region 1's result as one array -/

/-- The product as one whole array: entry (R, O) is row R of xb against row O of wq. -/
def G2 (xb : S8192x4096.Idx → EReal) (wq : S11008x4096.Idx → EReal) : S8192x11008.Idx → EReal :=
  fun i => ∑ k : Fin 4096, xb (ix2 ⟨(i 0).val, (i 0).isLt⟩ k) * wq (ix2 ⟨(i 1).val, (i 1).isLt⟩ k)

/-- What is asked of the result's staging buffer after the body at point t: on the part the write-back moves it is
    block t of that array. -/
def RelI (c : Dev nD) (t : Fin cfg1.N) (X : S1024x512.Idx → EReal) : Prop :=
  (cfg1.win 2).cut (cfg1.grid.coords t) X = ((cfg1.win 2).blk t).view.read (Elt Ideal) (G2 (V2 m ρ c main_v2) (V2 m ρ c main_v0))

/-- The printed index maps and cuts of region 1, decided over the 176 points: x's block index is t / 22, the weight's
    t % 22, the result's both; the weight's rows the fetch lands are the result's columns the write-back moves — 256 in the
    last block of columns, 512 elsewhere. -/
theorem idx1 : ∀ t : Fin cfg1.N, win1_0.index t (0 : Fin 2) = t.val / 22 ∧ win1_0.index t (1 : Fin 2) = 0
    ∧ win1_1.index t (0 : Fin 2) = t.val % 22 ∧ win1_1.index t (1 : Fin 2) = 0
    ∧ win1_2.index t (0 : Fin 2) = t.val / 22 ∧ win1_2.index t (1 : Fin 2) = t.val % 22
    ∧ win1_1.xsize (grid1.coords t) (0 : Fin 2) = win1_2.xsize (grid1.coords t) (1 : Fin 2)
    ∧ win1_1.xsize (grid1.coords t) (1 : Fin 2) = 4096
    ∧ win1_2.xsize (grid1.coords t) (0 : Fin 2) = 1024
    ∧ win1_2.xsize (grid1.coords t) (1 : Fin 2) = (if t.val % 22 = 21 then 256 else 512) :=
  (by decide +kernel : ∀ t : Fin grid1.N, _)

/-- The product's payload at an index. -/
theorem pay1_at (a : Vec Ideal S1024x4096 .bf16) (b : Vec Ideal S512x4096 .bf16) (y : S1024x512.Idx) :
    k1_pay1 (F := Ideal) a b y = ∑ k : Fin 4096, a (ix2 ⟨(y 0).val, (y 0).isLt⟩ k) * b (ix2 ⟨(y 1).val, (y 1).isLt⟩ k) := by
  obtain ⟨r, q, rfl⟩ : ∃ (r : Fin 1024) (q : Fin 512), y = ix2 r q := ⟨y 0, y 1, eq_ix2 y⟩
  exact Cert.OneBit.Pay.pay1_apply a b r q

/-- Row r of x's block at point t is row 1024 (t / 22) + r of the reshaped x. -/
theorem blk1x_read (c : Dev nD) (t : Fin cfg1.N) (r : Fin 1024) (k : Fin 4096) (R : Fin 8192) (hR : R.val = t.val / 22 * 1024 + r.val) :
    iblk1 (V2 m ρ) c 0 t (ix2 r k) = V2 m ρ c main_v2 (ix2 R k) := by
  unfold iblk1
  show V2 m ρ c main_v2 (((cfg1.win 0).blk t).view.emb (ix2 r k)) = _
  refine congrArg (V2 m ρ c main_v2) (funext fun a => Fin.ext ?_)
  match a with
  | ⟨0, _⟩ => show win1_0.index t (0 : Fin 2) * 1024 + 1 * r.val = R.val; rw [(idx1 t).1]; omega
  | ⟨1, _⟩ => show win1_0.index t (1 : Fin 2) * 4096 + 1 * k.val = k.val; rw [(idx1 t).2.1]; omega

/-- A row q of the weight's staging buffer that the fetch at point t landed is row 512 (t % 22) + q of the scaled weight,
    whatever the buffer held before. -/
theorem fill1w_read (c : Dev nD) (t : Fin cfg1.N) (d : (cfg1.win 1).block.Idx → Elt Ideal (cfg1.win 1).elt) (q : Fin 512) (k : Fin 4096)
    (hq : q.val < win1_1.xsize (grid1.coords t) (0 : Fin 2)) (O : Fin 11008) (hO : O.val = t.val % 22 * 512 + q.val) :
    (cfg1.win 1).fill (cfg1.grid.coords t) d (iblk1 (V2 m ρ) c 1 t) (ix2 q k) = V2 m ρ c main_v0 (ix2 O k) := by
  have hm : (cfg1.win 1).moved (cfg1.grid.coords t) (ix2 q k) = true :=
    ((cfg1.win 1).moved_iff _ _).mpr fun a => match a with
      | ⟨0, _⟩ => hq
      | ⟨1, _⟩ => by show k.val < win1_1.xsize (grid1.coords t) (1 : Fin 2); rw [(idx1 t).2.2.2.2.2.2.2.1]; exact k.isLt
  unfold Pipeline.Window.fill
  rw [dif_pos hm]
  unfold iblk1
  show V2 m ρ c main_v0 (((cfg1.win 1).blk t).view.emb _) = _
  refine congrArg (V2 m ρ c main_v0) (funext fun a => Fin.ext ?_)
  match a with
  | ⟨0, _⟩ => show win1_1.index t (0 : Fin 2) * 512 + 1 * q.val = O.val; rw [(idx1 t).2.2.1]; omega
  | ⟨1, _⟩ => show win1_1.index t (1 : Fin 2) * 4096 + 1 * k.val = k.val; rw [(idx1 t).2.2.2.1]; omega

/-- THE RELATION HOLDS of what the body stores, whatever filled out the weight's buffer. -/
theorem hRelI (c : Dev nD) (t : Fin cfg1.N) (d : (cfg1.win 1).block.Idx → Elt Ideal (cfg1.win 1).elt) :
    RelI m ρ c t (out1_2 (iblk1 (V2 m ρ) c 0 t) ((cfg1.win 1).fill (cfg1.grid.coords t) d (iblk1 (V2 m ρ) c 1 t))) := by
  unfold RelI out1_2
  rw [View.canon_unit_zero hz]
  simp only [View.ld_unit_zero (S := S1024x4096) hz, View.ld_unit_zero (S := S512x4096) hz]
  funext y
  obtain ⟨e00, e01, e10, e11, e20, e21, exs, ex1, ex20, ex21⟩ := idx1 t
  have hN : cfg1.N = 176 := N_1
  have ht : t.val < 176 := hN ▸ t.isLt
  have hy0 : (y 0).val < 1024 := by have := (y 0).isLt; rw [← ex20]; exact this
  have hy1x : (y 1).val < win1_2.xsize (grid1.coords t) (1 : Fin 2) := (y 1).isLt
  have hy1 : (y 1).val < 512 := by rw [ex21] at hy1x; split at hy1x <;> omega
  have hy1in : t.val % 22 * 512 + (y 1).val < 11008 := by rw [ex21] at hy1x; split at hy1x <;> omega
  have hR : t.val / 22 * 1024 + (y 0).val < 8192 := by omega
  refine (pay1_at (iblk1 (V2 m ρ) c 0 t) ((cfg1.win 1).fill (cfg1.grid.coords t) d (iblk1 (V2 m ρ) c 1 t))
    ((cfg1.win 2).xinj (cfg1.grid.coords t) y)).trans ?_
  show _ = G2 _ _ (((cfg1.win 2).blk t).view.emb y)
  unfold G2
  refine Finset.sum_congr rfl fun k _ => ?_
  have hR' : ((((cfg1.win 2).blk t).view.emb y) 0).val = t.val / 22 * 1024 + (y 0).val := by
    show win1_2.index t (0 : Fin 2) * 1024 + 1 * (y 0).val = _
    rw [e20]; omega
  have hO' : ((((cfg1.win 2).blk t).view.emb y) 1).val = t.val % 22 * 512 + (y 1).val := by
    show win1_2.index t (1 : Fin 2) * 512 + 1 * (y 1).val = _
    rw [e21]; omega
  have hx := blk1x_read m ρ c t ⟨(y 0).val, hy0⟩ k ⟨((((cfg1.win 2).blk t).view.emb y) 0).val, ((((cfg1.win 2).blk t).view.emb y) 0).isLt⟩ hR'
  have hw := fill1w_read m ρ c t d ⟨(y 1).val, hy1⟩ k (by rw [exs]; exact hy1x)
    ⟨((((cfg1.win 2).blk t).view.emb y) 1).val, ((((cfg1.win 2).blk t).view.emb y) 1).isLt⟩ hO'
  exact congrArg₂ (fun (p q : EReal) => p * q) hx hw

end Cert.KernelIdeal.ValR

end
-- ==== Proof.ValueOut.lean ====
/-
  The result of the idealized kernel's run, on the extended reals.
  Whatever contents region 1's write-backs may have left in its result array, an entry some point's block covers holds
  that entry of the one product array (each write-back writes, on the part it moves, a block of that array; later
  write-backs that cover the entry again write the same value); the 8 × 22 blocks, cut at the array's end, cover the
  array; the last reshape reads it row (b · 2048 + s) for (b, s). So the result at (b, s, o) is x's row (b, s) against
  row o of the kernel's effective weight.
-/
import proofs.«167918_j15805479649501_2_alg».proof.Proof.ValueKI
import proofs.«167918_j15805479649501_2_alg».proof.Proof.ValueR1

set_option maxRecDepth 16384

noncomputable section

namespace Cert.KernelIdeal.ValO

open Cert.KernelIdeal Cert.KernelIdeal.Gen Cert.KernelIdeal.Body Cert.KernelIdeal.Run Cert.KernelIdeal.Val Cert.KernelIdeal.ValR
open Idealize.ShloMosaic Idealize.ShloMosaic.TcCoe Idealize.ShloMosaic.ValueIdx Idealize.SL.Sem
open Idealize.ShloMosaic.Pipeline (Dat RDat)
open Cert.OneBit

variable (m : (ℓ : Loc nD τ sig) → Buf (Elt Ideal) ℓ) (ρ : Dev nD → PrngReg)

/-- After the write-backs of the points below n, an entry in the block of a point below n holds the product array's. -/
theorem left_apply (c : Dev nD) : ∀ (n : Nat), n ≤ cfg1.N →
    ∀ (Fa : Buf (Elt Ideal) ((cfg1.win 2).arr.view.loc (c : Thread nD τ))), (rdat1 (V2 m ρ) (RelI m ρ) c).ArrAt 2 n Fa →
    ∀ (t : Fin cfg1.N) (i : ((cfg1.win 2).arr.view.loc (c : Thread nD τ)).2.ty.Idx), t.val < n →
      i ∈ ((cfg1.win 2).blk t).view.set → Fa i = G2 (V2 m ρ c main_v2) (V2 m ρ c main_v0) i
  | 0, _, _, _, _, _, ht, _ => absurd ht (Nat.not_lt_zero _)
  | n + 1, hn, Fa, hFa, t, i, ht, hi => by
    have hn' : n < cfg1.N := hn
    have hs : (rdat1 (V2 m ρ) (RelI m ρ) c).ArrAt 2 (n + 1)
        = (rdat1 (V2 m ρ) (RelI m ρ) c).ArrStep 2 ⟨n, hn'⟩ ((rdat1 (V2 m ρ) (RelI m ρ) c).ArrAt 2 n) := by
      have := (rdat1 (V2 m ρ) (RelI m ρ) c).ArrAt_succ 2 ⟨n, hn'⟩
      rw [if_pos (flush1_2 ⟨n, hn'⟩)] at this
      exact this
    rw [hs] at hFa
    obtain ⟨G₀, X, hprev, ⟨Y, -, hafter⟩, rfl⟩ := hFa
    have hX : (cfg1.win 2).cut (cfg1.grid.coords ⟨n, hn'⟩) X
        = ((cfg1.win 2).blk ⟨n, hn'⟩).view.read (Elt Ideal) (G2 (V2 m ρ c main_v2) (V2 m ρ c main_v0)) := hafter
    rw [hX, View.write_read_eq_piecewise]
    by_cases hin : i ∈ ((cfg1.win 2).blk ⟨n, hn'⟩).view.setOn Finset.univ
    · rw [Finset.piecewise_eq_of_mem _ _ _ hin]
    · rw [Finset.piecewise_eq_of_notMem _ _ _ hin]
      have htn : t.val ≠ n := fun e => hin (by rw [View.setOn_univ]; have : t = ⟨n, hn'⟩ := Fin.ext e; exact this ▸ hi)
      exact left_apply c n (Nat.le_of_lt hn') G₀ hprev t i (by omega) hi

theorem mem_blk1 (t : Fin cfg1.N) (i : S8192x11008.Idx) :
    i ∈ ((cfg1.win 2).blk t).view.set ↔ ∀ a : Fin 2, win1_2.index t a * S1024x512.size a ≤ (i a).val
      ∧ (i a).val < win1_2.index t a * S1024x512.size a + win1_2.xsize (grid1.coords t) a := by
  show i ∈ ((View.whole main_v3).slice (win1_2.rect t)).set ↔ _
  rw [View.set_slice_whole, Rect.mem_set_unit]
  exact Iff.rfl

/-- Every entry of the result array lies in the block — cut at the array's end — of the point its row and column fall in. -/
theorem cover1 (i : S8192x11008.Idx) : ∃ t : Fin cfg1.N, i ∈ ((cfg1.win 2).blk t).view.set := by
  have hi0 : (i 0).val < 8192 := (i 0).isLt
  have hi1 : (i 1).val < 11008 := (i 1).isLt
  have hN : cfg1.N = 176 := N_1
  have htl : (i 0).val / 1024 * 22 + (i 1).val / 512 < cfg1.N := by rw [hN]; omega
  refine ⟨⟨(i 0).val / 1024 * 22 + (i 1).val / 512, htl⟩, ?_⟩
  rw [mem_blk1]
  obtain ⟨-, -, -, -, e20, e21, -, -, ex20, ex21⟩ := idx1 ⟨(i 0).val / 1024 * 22 + (i 1).val / 512, htl⟩
  intro a
  match a with
  | ⟨0, _⟩ =>
    show win1_2.index _ (0 : Fin 2) * 1024 ≤ (i 0).val ∧ (i 0).val < win1_2.index _ (0 : Fin 2) * 1024 + win1_2.xsize _ (0 : Fin 2)
    rw [e20, ex20]
    show ((i 0).val / 1024 * 22 + (i 1).val / 512) / 22 * 1024 ≤ _ ∧ _ < ((i 0).val / 1024 * 22 + (i 1).val / 512) / 22 * 1024 + 1024
    omega
  | ⟨1, _⟩ =>
    show win1_2.index _ (1 : Fin 2) * 512 ≤ (i 1).val ∧ (i 1).val < win1_2.index _ (1 : Fin 2) * 512 + win1_2.xsize _ (1 : Fin 2)
    rw [e21, ex21]
    show ((i 0).val / 1024 * 22 + (i 1).val / 512) % 22 * 512 ≤ _ ∧ _ < ((i 0).val / 1024 * 22 + (i 1).val / 512) % 22 * 512 + (if ((i 0).val / 1024 * 22 + (i 1).val / 512) % 22 = 21 then 256 else 512)
    split <;> omega

/-- Whatever region 1 may have left in its result array is the product array. -/
theorem left_eq (c : Dev nD) (A : Arr1 (F := Ideal) c) (hA : Left1 m ρ (RelI m ρ) c A) :
    A 2 = G2 (V2 m ρ c main_v2) (V2 m ρ c main_v0) :=
  funext fun i => by
    obtain ⟨t, hi⟩ := cover1 i
    exact left_apply m ρ c cfg1.N (Nat.le_refl _) (A 2) (hA 2) t i t.isLt hi

/-- The last reshape of it. -/
theorem W4_main_v4 (c : Dev nD) (A : Arr1 (F := Ideal) c) : (W4 m ρ c A main_v4 : S4x2048x11008.Idx → EReal)
    = shapeCast S4x2048x11008 (A 2) shapeCasts_S8192x11008_S4x2048x11008 := by
  show StableHlo.after hostOps2 (W3 m ρ c A) (Proc.devRef .tc main_v4) = _
  after_results
  rw [W3_arr m ρ c A 2]
  rfl

/-- THE RESULT: at (b, s, o), x's row (b, s) against row o of the kernel's effective weight. -/
theorem result_eq (c : Dev nD) (A : Arr1 (F := Ideal) c) (hA : Left1 m ρ (RelI m ρ) c A) (i : S4x2048x11008.Idx) :
    (W4 m ρ c A main_v4 : S4x2048x11008.Idx → EReal) i
      = out (m ((c : Thread nD τ).loc main_arg0)) (weffK (m ((c : Thread nD τ).loc main_arg1))) i := by
  obtain ⟨b, s, o, rfl⟩ : ∃ (b : Fin 4) (s : Fin 2048) (o : Fin 11008), i = ix3 b s o := ⟨i 0, i 1, i 2, eq_ix3 i⟩
  have hR : b.val * 2048 + s.val < 8192 := by have := b.isLt; have := s.isLt; omega
  rw [W4_main_v4, left_eq m ρ c A hA]
  refine (shapeCast_apply (G2 (V2 m ρ c main_v2) (V2 m ρ c main_v0)) shapeCasts_S8192x11008_S4x2048x11008 (ix3 b s o)
    (ix2 ⟨b.val * 2048 + s.val, hR⟩ o) (by
      rewrite [Shape.rowMajor_val_two, Shape.rowMajor_val_three]
      show (b.val * 2048 + s.val) * 11008 + o.val = (b.val * 2048 + s.val) * 11008 + o.val
      rfl)).trans ?_
  unfold G2 out
  refine Finset.sum_congr rfl fun k _ => ?_
  refine congrArg₂ (· * ·) (xb_at m ρ c ⟨b.val * 2048 + s.val, hR⟩ k b s rfl) ?_
  rw [V2_main_v0, V1_main_v0]
  rfl

end Cert.KernelIdeal.ValO

end
-- ==== Proof.RefRunP.lean ====
/-
  The reference program's run read back. Its @main is a list of 16 host operations (the three operations of the clip
  function standing in its call's place); every weakly fair execution terminates with the result buffer at the
  operations' composed term of the two arguments' launch contents, and the arguments unchanged. The composed term is
  read off the fold of the operations one operation at a time: each reshape's result at its own reference is the
  reshaped operand (the transport along the reference's type is the identity), and the clip's three operations at
  their typed references give, against any second operand, the maximum of the broadcast constant with it.
-/
import proofs.«167918_j15805479649501_2_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 16 operations, in order (a called function's operations stand in its call's place, spelt `TRef.…`). -/
abbrev ops : List (HloOp τ sig (Elt F)) :=
  [ reshape main_arg1 main_v0 rfl shapeCasts_S11008x4096_S11008x32x128,
    unary main_v0 main_v1 (Host.absf : (⟨S11008x32x128, .f32⟩ : BufTy).Contents (Elt F) → (⟨S11008x32x128, .f32⟩ : BufTy).Contents (Elt F)),
    nullary main_cst (constant S_ .f32 0xFF800000#32),
    binary main_v1 main_cst main_v2 ((fun x v => Host.reduce FloatOps.maximumf x v reducesTo_S11008x32x128_S11008x32_d2 h_S_) : (⟨S11008x32x128, .f32⟩ : BufTy).Contents (Elt F) → (⟨S_, .f32⟩ : BufTy).Contents (Elt F) → (⟨S11008x32, .f32⟩ : BufTy).Contents (Elt F)),
    unary main_v2 main_v3 (broadcastInDim S11008x32x1 ![0, 1] bcast_S11008x32_S11008x32x1_0_1 : (⟨S11008x32, .f32⟩ : BufTy).Contents (Elt F) → (⟨S11008x32x1, .f32⟩ : BufTy).Contents (Elt F)),
    nullary main_cst_0 (constant S_ .f32 0x322BCC77#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S11008x32x1, .f32⟩) main_call0_v1) (broadcastInDim S11008x32x1 ![] bcast_S_S11008x32x1),
    TRef.binary (TRef.of (T := ⟨S11008x32x1, .f32⟩) main_call0_v1) (TRef.of (T := ⟨S11008x32x1, .f32⟩) main_v3) (TRef.of (T := ⟨S11008x32x1, .f32⟩) main_v4) maximumf,
    unary main_v4 main_v5 (broadcastInDim S11008x32x128 ![0, 1, 2] bcast_S11008x32x1_S11008x32x128_0_1_2 : (⟨S11008x32x1, .f32⟩ : BufTy).Contents (Elt F) → (⟨S11008x32x128, .f32⟩ : BufTy).Contents (Elt F)),
    binary main_v0 main_v5 main_v6 (Host.divf : (⟨S11008x32x128, .f32⟩ : BufTy).Contents (Elt F) → (⟨S11008x32x128, .f32⟩ : BufTy).Contents (Elt F) → (⟨S11008x32x128, .f32⟩ : BufTy).Contents (Elt F)),
    unary main_v6 main_v7 (Host.sign : (⟨S11008x32x128, .f32⟩ : BufTy).Contents (Elt F) → (⟨S11008x32x128, .f32⟩ : BufTy).Contents (Elt F)),
    unary main_v4 main_v8 (broadcastInDim S11008x32x128 ![0, 1, 2] bcast_S11008x32x1_S11008x32x128_0_1_2 : (⟨S11008x32x1, .f32⟩ : BufTy).Contents (Elt F) → (⟨S11008x32x128, .f32⟩ : BufTy).Contents (Elt F)),
    binary main_v7 main_v8 main_v9 (mulf : (⟨S11008x32x128, .f32⟩ : BufTy).Contents (Elt F) → (⟨S11008x32x128, .f32⟩ : BufTy).Contents (Elt F) → (⟨S11008x32x128, .f32⟩ : BufTy).Contents (Elt F)),
    reshape main_v9 main_v10 rfl shapeCasts_S11008x32x128_S11008x4096,
    binary main_arg0 main_v10 main_v11 ((fun l r => Host.dotGeneral dot_S4x2048x4096_S11008x4096_S4x2048x11008_2_1_01_0_n_n none l r) : (⟨S4x2048x4096, .f32⟩ : BufTy).Contents (Elt F) → (⟨S11008x4096, .f32⟩ : BufTy).Contents (Elt F) → (⟨S4x2048x11008, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., unary_bufs_sub .., nullary_bufs_sub .., binary_bufs_sub .., unary_bufs_sub .., nullary_bufs_sub .., unary_bufs_sub .., unary_bufs_sub .., binary_bufs_sub .., unary_bufs_sub .., binary_bufs_sub .., unary_bufs_sub .., unary_bufs_sub .., binary_bufs_sub .., reshape_bufs_sub .., binary_bufs_sub ..⟩

/-- The two reshapes' results at literal references, with the element-type transport (the identity here) removed. -/
theorem reshape_v0_result (V : Valuation τ sig (Elt F)) :
    (reshape (τ := τ) (Val := Elt F) main_arg1 main_v0 rfl shapeCasts_S11008x4096_S11008x32x128).result V (Proc.devRef .tc main_v0)
      = shapeCast S11008x32x128 (V (Proc.devRef .tc main_arg1)) shapeCasts_S11008x4096_S11008x32x128 := by
  rw [reshape_result]; rfl
theorem reshape_v10_result (V : Valuation τ sig (Elt F)) :
    (reshape (τ := τ) (Val := Elt F) main_v9 main_v10 rfl shapeCasts_S11008x32x128_S11008x4096).result V (Proc.devRef .tc main_v10)
      = shapeCast S11008x4096 (V (Proc.devRef .tc main_v9)) shapeCasts_S11008x32x128_S11008x4096 := by
  rw [reshape_result]; rfl

/-- The inlined call's three operations at their typed references: the transports along the references' types are the
    identity, so the scale against a second operand Y is the plain maximum of the broadcast constant and Y. -/
theorem clip_eq (Y : (⟨S11008x32x1, .f32⟩ : BufTy).Contents (Elt F)) :
  ((TRef.of (sig := sig) (T := ⟨S11008x32x1, .f32⟩) main_v4).toBuf (Val := Elt F)
    (maximumf
      ((TRef.of (sig := sig) (T := ⟨S11008x32x1, .f32⟩) main_call0_v1).ofBuf (Val := Elt F)
        ((TRef.of (sig := sig) (T := ⟨S11008x32x1, .f32⟩) main_call0_v1).toBuf (Val := Elt F)
          (broadcastInDim S11008x32x1 ![] bcast_S_S11008x32x1
            ((TRef.of (sig := sig) (T := ⟨S_, .f32⟩) main_call0_v0).ofBuf (Val := Elt F)
              ((TRef.of (sig := sig) (T := ⟨S_, .f32⟩) main_call0_v0).toBuf (Val := Elt F)
                (id ((TRef.of (sig := sig) (T := ⟨S_, .f32⟩) main_cst_0).ofBuf (Val := Elt F) (constant (F := F) S_ .f32 0x322BCC77#32))))))))
      ((TRef.of (sig := sig) (T := ⟨S11008x32x1, .f32⟩) main_v3).ofBuf (Val := Elt F) Y)) : (⟨S11008x32x1, .f32⟩ : BufTy).Contents (Elt F))
  = maximumf (broadcastInDim S11008x32x1 ![] bcast_S_S11008x32x1 (id (constant (F := F) S_ .f32 0x322BCC77#32))) Y := rfl

set_option maxHeartbeats 1600000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = Host.dotGeneral dot_S4x2048x4096_S11008x4096_S4x2048x11008_2_1_01_0_n_n none (m ((c.tc : Thread nD τ).loc main_arg0)) (shapeCast _ (mulf (Host.sign (Host.divf (shapeCast _ (m ((c.tc : Thread nD τ).loc main_arg1)) shapeCasts_S11008x4096_S11008x32x128) (broadcastInDim S11008x32x128 ![0, 1, 2] bcast_S11008x32x1_S11008x32x128_0_1_2 (maximumf (broadcastInDim S11008x32x1 ![] bcast_S_S11008x32x1 (id (constant S_ .f32 0x322BCC77#32))) (broadcastInDim S11008x32x1 ![0, 1] bcast_S11008x32_S11008x32x1_0_1 (Host.reduce FloatOps.maximumf (Host.absf (shapeCast _ (m ((c.tc : Thread nD τ).loc main_arg1)) shapeCasts_S11008x4096_S11008x32x128)) (constant S_ .f32 0xFF800000#32) reducesTo_S11008x32x128_S11008x32_d2 h_S_)))))) (broadcastInDim S11008x32x128 ![0, 1, 2] bcast_S11008x32x1_S11008x32x128_0_1_2 (maximumf (broadcastInDim S11008x32x1 ![] bcast_S_S11008x32x1 (id (constant S_ .f32 0x322BCC77#32))) (broadcastInDim S11008x32x1 ![0, 1] bcast_S11008x32_S11008x32x1_0_1 (Host.reduce FloatOps.maximumf (Host.absf (shapeCast _ (m ((c.tc : Thread nD τ).loc main_arg1)) shapeCasts_S11008x4096_S11008x32x128)) (constant S_ .f32 0xFF800000#32) reducesTo_S11008x32x128_S11008x32_d2 h_S_))))) shapeCasts_S11008x32x128_S11008x4096)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v11).trans (by
        simp only [after_cons, after_nil]
        repeat (first
          | rw [reshape_v0_result] | rw [reshape_v10_result]
          | rw [nullary_result] | rw [unary_result] | rw [binary_result]
          | (rw [nullary_result_ne]; rotate_left; decide)
          | (rw [unary_result_ne]; rotate_left; decide)
          | (rw [binary_result_ne]; rotate_left; decide)
          | (rw [reshape_result_ne]; rotate_left; decide))
        have hl0 : launchContents m c (Proc.tc.devRef main_arg0) = m ((c.tc : Thread nD τ).loc main_arg0) := rfl
        have hl1 : launchContents m c (Proc.tc.devRef main_arg1) = m ((c.tc : Thread nD τ).loc main_arg1) := rfl
        rw [hl0, hl1]
        rw [clip_eq]),
      (h c main_arg0).trans (by after_results <;> rfl),
      (h c main_arg1).trans (by after_results <;> rfl)⟩)
    (run_seq scopedRefs_eq scopedSems_eq defs main (fun _ => ops) main_eq (fun _ => ops_sub) m ρ)

end Cert.ReferenceIdeal.ValueP

end
-- ==== Proof.RefValue.lean ====
import proofs.«167918_j15805479649501_2_alg».proof.Proof.ReadP
import proofs.«167918_j15805479649501_2_alg».proof.Proof.Spec

/-
  The reference program read at an index. A weight row is reshaped into 32 groups of 128 columns; a group's scale is the
  larger of ε and the fold of max over |w| from -∞; every entry is divided by its group's scale, its sign taken and
  multiplied by the scale again; the result is reshaped back and contracted against x over the 4096 columns. Read entry
  by entry this is `out x (weffR w)`.
-/

noncomputable section

namespace Cert.OneBit.Ref

open Cert.ReferenceIdeal Cert.ReferenceIdeal.Gen Cert.ReferenceIdeal.ReadP Idealize.ShloMosaic Idealize.ShloMosaic.ValueIdx
open Cert.OneBit

/-- The reduction fact at the literal shapes, in the form the one-axis lemmas take. -/
theorem reduces_d2 : S11008x32x128.Reduces [2] S11008x32 := by decide

/-- Entry (o, g, l) of the reshaped weight is entry (o, g·128 + l) of the weight. -/
theorem v0_at (w : (⟨S11008x4096, .f32⟩ : BufTy).Contents (Elt Ideal)) (o : Fin 11008) (g : Fin 32) (l : Fin 128) :
    val_main_v0 (F := Ideal) w (ix3 o g l) = w (ix2 o (gcol g l)) := by
  rw [val_main_v0_apply]
  refine congrArg w (funext fun a => Fin.ext ?_)
  have ho := o.isLt; have hg := g.isLt; have hl := l.isLt
  match a with
  | ⟨0, _⟩ => show ((o.val * 32 + g.val) * 128 + l.val) / 4096 = o.val; omega
  | ⟨1, _⟩ => show ((o.val * 32 + g.val) * 128 + l.val) % 4096 = g.val * 128 + l.val; omega

/-- The index over (o, g) with l inserted on the reduced axis is (o, g, l). -/
theorem lift_at (o : Fin 11008) (g : Fin 32) (l : Fin 128) :
    reduces_d2.lift (ix2 o g) l = ix3 o g l := by
  funext a
  match a with
  | ⟨0, _⟩ => rfl
  | ⟨1, _⟩ => rfl
  | ⟨2, _⟩ => rfl

/-- The max-reduce at (o, g) is the fold of max over the group's |w| from -∞. -/
theorem v2_at (w : (⟨S11008x4096, .f32⟩ : BufTy).Contents (Elt Ideal)) (o : Fin 11008) (g : Fin 32) :
    val_main_v2 (F := Ideal) w (ix2 o g) = gmax w o g := by
  have h := Host.reduce_eq_fold_single (α := EReal) (s := S11008x32x128) (t := S11008x32) (a := (2 : Fin 3)) (u := S_)
    (FloatOps.maximumf (F := Ideal) (φ := .f32))
    (val_main_v1 (F := Ideal) w) (val_main_cst (F := Ideal))
    reducesTo_S11008x32x128_S11008x32_d2 reduces_d2 h_S_ (ix2 o g)
  unfold val_main_v2
  refine h.trans ?_
  unfold gmax
  refine Finset.fold_congr (fun l _ => ?_)
  exact congrArg (fun v : EReal => max v (-v))
    ((congrArg (val_main_v0 (F := Ideal) w) (lift_at o g l)).trans (v0_at w o g l))

/-- The index maps of the keep-dims broadcast, the scale's broadcast over a group, and the reshape back, at coordinates. -/
theorem idx3_at (o : Fin 11008) (g : Fin 32) (z : Fin 1) : idx_main_v3 (ix3 o g z) = ix2 o g := by
  funext a
  match a with
  | ⟨0, _⟩ => rfl
  | ⟨1, _⟩ => rfl

theorem idx5_at (o : Fin 11008) (g : Fin 32) (l : Fin 128) : idx_main_v5 (ix3 o g l) = ix3 o g (0 : Fin 1) := by
  funext a
  match a with
  | ⟨0, _⟩ => rfl
  | ⟨1, _⟩ => rfl
  | ⟨2, _⟩ => rfl

theorem idx8_at (o : Fin 11008) (g : Fin 32) (l : Fin 128) : idx_main_v8 (ix3 o g l) = ix3 o g (0 : Fin 1) := by
  funext a
  match a with
  | ⟨0, _⟩ => rfl
  | ⟨1, _⟩ => rfl
  | ⟨2, _⟩ => rfl

/-- Column k of row o sits in group k / 128 at place k % 128. -/
theorem idx10_at (o : Fin 11008) (k : Fin 4096) :
    idx_main_v10 (ix2 o k) = ix3 o (grp k) (⟨k.val % 128, Nat.mod_lt _ (by decide)⟩ : Fin 128) := by
  have ho := o.isLt; have hk := k.isLt
  refine funext fun a => Fin.ext ?_
  match a with
  | ⟨0, _⟩ => show (o.val * 4096 + k.val) / 4096 = o.val; omega
  | ⟨1, _⟩ => show (o.val * 4096 + k.val) / 128 % 32 = k.val / 128; omega
  | ⟨2, _⟩ => show (o.val * 4096 + k.val) % 128 = k.val % 128; omega

theorem gcol_grp (k : Fin 4096) : gcol (grp k) (⟨k.val % 128, Nat.mod_lt _ (by decide)⟩ : Fin 128) = k := by
  refine Fin.ext ?_
  show k.val / 128 * 128 + k.val % 128 = k.val
  omega

/-- The scale of group g of row o: the larger of ε and the group's largest |w|. -/
theorem v4_at (w : (⟨S11008x4096, .f32⟩ : BufTy).Contents (Elt Ideal)) (o : Fin 11008) (g : Fin 32) (z : Fin 1) :
    val_main_v4 (F := Ideal) w (ix3 o g z) = max eps (gmax w o g) := by
  rw [val_main_v4_apply, val_main_call0_v1_apply, val_main_call0_v0_apply, val_main_cst_0_apply, val_main_v3_apply,
    idx3_at, v2_at]
  rfl

/-- The scale broadcast over the group's 128 columns (it is broadcast twice: for the division and for the product). -/
theorem v5_at (w : (⟨S11008x4096, .f32⟩ : BufTy).Contents (Elt Ideal)) (o : Fin 11008) (g : Fin 32) (l : Fin 128) :
    val_main_v5 (F := Ideal) w (ix3 o g l) = max eps (gmax w o g) := by
  rw [val_main_v5_apply, idx5_at, v4_at]

theorem v8_at (w : (⟨S11008x4096, .f32⟩ : BufTy).Contents (Elt Ideal)) (o : Fin 11008) (g : Fin 32) (l : Fin 128) :
    val_main_v8 (F := Ideal) w (ix3 o g l) = max eps (gmax w o g) := by
  rw [val_main_v8_apply, idx8_at, v4_at]

/-- The effective weight in the grouped layout: the sign of the entry over its scale, times the scale. -/
theorem v9_at (w : (⟨S11008x4096, .f32⟩ : BufTy).Contents (Elt Ideal)) (o : Fin 11008) (g : Fin 32) (l : Fin 128) :
    val_main_v9 (F := Ideal) w (ix3 o g l)
      = Ideal.sign (Ideal.div (w (ix2 o (gcol g l))) (max eps (gmax w o g))) * max eps (gmax w o g) := by
  rw [val_main_v9_apply, val_main_v7_apply, val_main_v6_apply, v0_at, v5_at, v8_at]
  rfl

/-- Reshaped back, entry (o, k) is the reference's effective weight. -/
theorem v10_at (w : (⟨S11008x4096, .f32⟩ : BufTy).Contents (Elt Ideal)) (o : Fin 11008) (k : Fin 4096) :
    val_main_v10 (F := Ideal) w (ix2 o k) = weffR w o k := by
  rw [val_main_v10_apply, idx10_at, v9_at, gcol_grp]
  rfl

/-- The reference's result at an index is x's row against the reference's effective weight. -/
theorem ref_value (x : (⟨Cert.ReferenceIdeal.S4x2048x4096, .f32⟩ : BufTy).Contents (Elt Ideal))
    (w : (⟨Cert.ReferenceIdeal.S11008x4096, .f32⟩ : BufTy).Contents (Elt Ideal)) (i : Cert.ReferenceIdeal.S4x2048x11008.Idx) :
    Cert.ReferenceIdeal.ReadP.val_main_v11 (F := Ideal) x w i = Cert.OneBit.out x (Cert.OneBit.weffR w) i := by
  rw [val_main_v11_apply]
  unfold out
  refine Finset.sum_congr rfl fun k _ => ?_
  have el : lidx_main_v11 i k = ix3 (i 0) (i 1) k := by
    funext a
    match a with
    | ⟨0, _⟩ => rfl
    | ⟨1, _⟩ => rfl
    | ⟨2, _⟩ => rfl
  have er : ridx_main_v11 i k = ix2 (i 2) k := by
    funext a
    match a with
    | ⟨0, _⟩ => rfl
    | ⟨1, _⟩ => rfl
  have h1 : x (lidx_main_v11 i k) = x (ix3 (i 0) (i 1) k) := congrArg x el
  have h2 : val_main_v10 (F := Ideal) w (ridx_main_v11 i k) = weffR w (i 2) k :=
    (congrArg (val_main_v10 (F := Ideal) w) er).trans (v10_at w (i 2) k)
  rw [h1, h2]

end Cert.OneBit.Ref

end
-- ==== Proof.SignScale.lean ====
/-
  The two effective weights agree on real weights: with every entry of w real, a group's scale
  S = max ε (max |w|) is a positive real, so dividing an entry by S keeps its sign, and the kernel's
  sign term is the sign on the extended reals.
-/
import proofs.«167918_j15805479649501_2_alg».proof.Proof.Spec
import Idealize.ShloMosaic.PureOps.Ideal.Laws

namespace Cert.OneBit

open Idealize.ShloMosaic Idealize.ShloMosaic.ValueIdx

/-- The kernel's sign term is the sign on the extended reals, at every value. -/
theorem sgnK_eq_sign (v : EReal) : sgnK v = Ideal.sign v :=
  Ideal.jnp_sign_eq_sign_f32 v

/-- ε is a positive real. -/
theorem eps_pos_real : ∃ e : ℝ, 0 < e ∧ eps = (e : EReal) := by
  refine ⟨(11258999 : ℝ) * (2 : ℝ) ^ (-50 : ℤ), by positivity, ?_⟩
  simp [eps, Ideal.ofBits, Ideal.ieee, -EReal.coe_mul]

/-- The word the fold starts from denotes -∞. -/
theorem negInf_eq_bot : Ideal.ofBits .f32 0xFF800000#32 = (⊥ : EReal) := by
  simp [Ideal.ofBits, Ideal.ieee]

/-- With every entry real, a group's largest |w| is below +∞: the fold starts at -∞ and every |w| is real. -/
theorem gmax_lt_top (w : (⟨2, ![11008, 4096]⟩ : Shape).Idx → EReal) (hw : ∀ j, ∃ r : ℝ, w j = (r : EReal))
    (o : Fin 11008) (g : Fin 32) : gmax w o g < ⊤ := by
  unfold gmax
  rw [Finset.fold_max_lt]
  refine ⟨by rw [negInf_eq_bot]; exact bot_lt_top, fun l _ => ?_⟩
  obtain ⟨r, hr⟩ := hw (ix2 o (gcol g l))
  rw [hr, ← EReal.coe_neg]
  exact max_lt (EReal.coe_lt_top _) (EReal.coe_lt_top _)

/-- With every entry real, the scale max ε (max |w|) of a group is a positive real. -/
theorem scale_pos_real (w : (⟨2, ![11008, 4096]⟩ : Shape).Idx → EReal) (hw : ∀ j, ∃ r : ℝ, w j = (r : EReal))
    (o : Fin 11008) (g : Fin 32) : ∃ s : ℝ, 0 < s ∧ max eps (gmax w o g) = (s : EReal) := by
  obtain ⟨e, he, hE⟩ := eps_pos_real
  have hpos : (0 : EReal) < max eps (gmax w o g) := lt_max_of_lt_left (by rw [hE]; exact_mod_cast he)
  have htop : max eps (gmax w o g) < ⊤ := max_lt (by rw [hE]; exact EReal.coe_lt_top _) (gmax_lt_top w hw o g)
  have hbot : max eps (gmax w o g) ≠ ⊥ := (lt_trans EReal.bot_lt_zero hpos).ne'
  refine ⟨(max eps (gmax w o g)).toReal, ?_, (EReal.coe_toReal htop.ne hbot).symm⟩
  exact EReal.toReal_pos hpos htop.ne

/-- Dividing a real by a positive real keeps its sign. -/
theorem sign_div_pos (r s : ℝ) (hs : 0 < s) : Ideal.sign (Ideal.div (r : EReal) (s : EReal)) = Ideal.sign (r : EReal) := by
  rw [Ideal.div_coe hs.ne', ← EReal.coe_mul, Ideal.sign_coe, Ideal.sign_coe, sign_mul,
    sign_pos (one_div_pos.mpr hs), mul_one]

/-- On real weights the kernel's and the reference's effective weights are one function. -/
theorem weffK_eq_weffR (w : (⟨2, ![11008, 4096]⟩ : Shape).Idx → EReal) (hw : ∀ j, ∃ r : ℝ, w j = (r : EReal))
    (o : Fin 11008) (k : Fin 4096) : weffK w o k = weffR w o k := by
  obtain ⟨s, hs, hS⟩ := scale_pos_real w hw o (grp k)
  obtain ⟨r, hr⟩ := hw (ix2 o k)
  unfold weffK weffR
  rw [sgnK_eq_sign, max_comm (gmax w o (grp k)) eps, hS, hr, sign_div_pos r s hs]

end Cert.OneBit
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.FiniteW.lean ====
/-
  The precondition read back at an entry. The precondition is the conjunction of two tests, one per argument: the
  and-reduction over all axes of the entrywise comparison |v| < +∞. It is true on every device, so each test is true,
  so every entry of x and every entry of the weight is a real number.
-/
import proofs.«167918_j15805479649501_2_alg».proof.Defs
import proofs.«167918_j15805479649501_2_alg».proof.Proof.Gen.Pre_finite_inputs
import proofs.«167918_j15805479649501_2_alg».proof.Proof.LibFiniteEntry

noncomputable section

namespace Cert.OneBit.Finite

open Idealize.ShloMosaic Idealize.SL.Sem Idealize.ShloMosaic.ValueIdx

/-- Every entry of the weight is a real number. -/
theorem weight_real (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ j, ∃ r : ℝ, m ((c.tc : Thread Cert.KernelIdeal.nD Cert.KernelIdeal.τ).loc Cert.KernelIdeal.main_arg1) j = (r : EReal) := by
  intro j
  have e := congrFun (h c) ix0
  have e2 := (IntOp.andi_eq_one.mp e).2
  exact Cert.Lib.FiniteEntry.all_real
    (m ((c.tc : Thread Cert.KernelIdeal.nD Cert.KernelIdeal.τ).loc Cert.KernelIdeal.main_arg1))
    Cert.Pre_finite_inputs.Gen.bcast_S_S11008x4096 Cert.Pre_finite_inputs.Gen.reducesTo_S11008x4096_S_d0_1
    Cert.Pre_finite_inputs.Gen.h_S_ (constantI Cert.Pre_finite_inputs.S_ 1 1#1) e2 j

/-- Every entry of x is a real number. -/
theorem x_real (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ j, ∃ r : ℝ, m ((c.tc : Thread Cert.KernelIdeal.nD Cert.KernelIdeal.τ).loc Cert.KernelIdeal.main_arg0) j = (r : EReal) := by
  intro j
  have e := congrFun (h c) ix0
  have e1 := (IntOp.andi_eq_one.mp e).1
  exact Cert.Lib.FiniteEntry.all_real
    (m ((c.tc : Thread Cert.KernelIdeal.nD Cert.KernelIdeal.τ).loc Cert.KernelIdeal.main_arg0))
    Cert.Pre_finite_inputs.Gen.bcast_S_S4x2048x4096 Cert.Pre_finite_inputs.Gen.reducesTo_S4x2048x4096_S_d0_1_2
    Cert.Pre_finite_inputs.Gen.h_S_ (constantI Cert.Pre_finite_inputs.S_ 1 1#1) e1 j

end Cert.OneBit.Finite

end
-- ==== Proof.lean ====
/-
  The certificate of a 1-bit linear layer against its jnp reference: per 128-column group of a weight row the scale is
  the largest |w| of the group raised to at least ε, the effective weight is the sign of the entry times the scale, and
  the result is x against the effective weight's rows.
  The kernel computes sign(w) · scale in one region (one 256-row block per point), changes x's format on the host, and
  multiplies in a second region (1024 × 512 blocks of the result, whole rows of both operands); the reference computes
  sign(w / scale) · scale and one contraction. On the extended reals the two agree where every weight is a real number:
  the scale is then a positive real, a quotient by it has the sign of its numerator, and a sum of products does not
  depend on how it was cut into blocks. The frames: both regions run at every point for any float values; the second
  region's last block of columns overhangs the array, what its body stores there is not named, and nothing reads it.
  The one rewrite of the ideal pass — the unit with the sign bit of w read as a selection between −1 and 1 — is the
  library's statement of that rule.
-/
import proofs.«167918_j15805479649501_2_alg».proof.Defs
import proofs.«167918_j15805479649501_2_alg».proof.Proof.Gen.Kernel
import proofs.«167918_j15805479649501_2_alg».proof.Proof.Gen.KernelIdeal
import proofs.«167918_j15805479649501_2_alg».proof.Proof.Gen.ReferenceIdeal
import proofs.«167918_j15805479649501_2_alg».proof.Proof.Gen.Pre_finite_inputs
import proofs.«167918_j15805479649501_2_alg».proof.Proof.ArgsK
import proofs.«167918_j15805479649501_2_alg».proof.Proof.ArgsKI
import proofs.«167918_j15805479649501_2_alg».proof.Proof.ValueOut
import proofs.«167918_j15805479649501_2_alg».proof.Proof.RefRunP
import proofs.«167918_j15805479649501_2_alg».proof.Proof.RefValue
import proofs.«167918_j15805479649501_2_alg».proof.Proof.SignScale
import proofs.«167918_j15805479649501_2_alg».proof.Proof.FiniteW
import Idealize.ShloMosaic.PureOps.IdealRules

noncomputable section

namespace Cert.Proof

open Idealize.ShloMosaic Idealize.ShloMosaic.TcCoe Idealize.SL.Sem

/-- The word-level kernel runs and leaves its arguments: the run with nothing asked of the second region's result. -/
theorem frame_k : @Cert.frame_Kernel Cert.Kernel.Gen.facts Cert.Pre_finite_inputs.Gen.facts := fun m ρ _ =>
  (θ_run Cert.Kernel.defs _ _).mono (fun r h c => by
      obtain ⟨A, -, hb⟩ := h c
      exact ⟨(hb _ (Cert.Kernel.Run.mem_uc Cert.Kernel.main_arg0 (by decide))).trans (Cert.Kernel.Run.W4_main_arg0 m ρ c A),
        (hb _ (Cert.Kernel.Run.mem_uc Cert.Kernel.main_arg1 (by decide))).trans (Cert.Kernel.Run.W4_main_arg1 m ρ c A)⟩)
    (Cert.Kernel.Run.run_main (F := Bits) m ρ (fun _ _ _ => True) (fun _ _ _ => trivial))

/-- The idealized kernel likewise. -/
theorem frame_ki : @Cert.frame_KernelIdeal Cert.KernelIdeal.Gen.facts Cert.Pre_finite_inputs.Gen.facts := fun m ρ _ =>
  (θ_run Cert.KernelIdeal.defs _ _).mono (fun r h c => by
      obtain ⟨A, -, hb⟩ := h c
      exact ⟨(hb _ (Cert.KernelIdeal.Run.mem_uc Cert.KernelIdeal.main_arg0 (by decide))).trans (Cert.KernelIdeal.Run.W4_main_arg0 m ρ c A),
        (hb _ (Cert.KernelIdeal.Run.mem_uc Cert.KernelIdeal.main_arg1 (by decide))).trans (Cert.KernelIdeal.Run.W4_main_arg1 m ρ c A)⟩)
    (Cert.KernelIdeal.Run.run_main (F := Ideal) m ρ (fun _ _ _ => True) (fun _ _ _ => trivial))

/-- The reference is host operations only: its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.ValueP.run (F := Ideal) m ρ)

/-- The ledger's one entry: the unit carrying w's sign bit is, at the ideal values, −1 below zero and 1 elsewhere. -/
theorem preserves : Cert.preserves_Kernel_KernelIdeal :=
  IdealRules.sign_bit.statement Cert.KernelIdeal.S256x32x128 .f32

/-- x against the two effective weights is one value where every weight is real. -/
theorem out_weff (x : (⟨3, ![4, 2048, 4096]⟩ : Shape).Idx → EReal) (w : (⟨2, ![11008, 4096]⟩ : Shape).Idx → EReal)
    (hw : ∀ j, ∃ r : ℝ, w j = (r : EReal)) (i : (⟨3, ![4, 2048, 11008]⟩ : Shape).Idx) :
    Cert.OneBit.out x (Cert.OneBit.weffR w) i = Cert.OneBit.out x (Cert.OneBit.weffK w) i := by
  unfold Cert.OneBit.out
  exact Finset.sum_congr rfl fun k _ => congrArg (HMul.hMul _) (Cert.OneBit.weffK_eq_weffR w hw (i 2) k).symm

/-- Both idealized programs end with the result at x against the kernel's effective weight of the launch arrays. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => (Cert.OneBit.out (m ((c.tc : Thread Cert.KernelIdeal.nD Cert.KernelIdeal.τ).loc Cert.KernelIdeal.main_arg0))
      (Cert.OneBit.weffK (m ((c.tc : Thread Cert.KernelIdeal.nD Cert.KernelIdeal.τ).loc Cert.KernelIdeal.main_arg1)))), ?_, ?_⟩
  · refine (θ_run Cert.KernelIdeal.defs _ _).mono (fun r h c => ?_)
      (Cert.KernelIdeal.Run.run_main (F := Ideal) m ρ (Cert.KernelIdeal.ValR.RelI m ρ) (Cert.KernelIdeal.ValR.hRelI m ρ))
    obtain ⟨A, hA, hb⟩ := h c
    exact ⟨(hb _ (Cert.KernelIdeal.Run.mem_uc Cert.KernelIdeal.main_v4 (by decide))).trans (funext (Cert.KernelIdeal.ValO.result_eq m ρ c A hA)),
      (hb _ (Cert.KernelIdeal.Run.mem_uc Cert.KernelIdeal.main_arg0 (by decide))).trans (Cert.KernelIdeal.Run.W4_main_arg0 m ρ c A),
      (hb _ (Cert.KernelIdeal.Run.mem_uc Cert.KernelIdeal.main_arg1 (by decide))).trans (Cert.KernelIdeal.Run.W4_main_arg1 m ρ c A)⟩
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v11_eq, (hagree c).1, (hagree c).2]
    funext i
    exact (Cert.OneBit.Ref.ref_value _ _ i).trans (out_weff _ _ (Cert.OneBit.Finite.weight_real m hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
